-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x4096x64 : Shape := ⟨4, ![4, 12, 4096, 64]⟩
abbrev S4x12x4096x8x8 : Shape := ⟨5, ![4, 12, 4096, 8, 8]⟩
abbrev S4x1x1x1 : Shape := ⟨4, ![4, 1, 1, 1]⟩
abbrev S1x12x1x1 : Shape := ⟨4, ![1, 12, 1, 1]⟩
abbrev S4x12x4096x8 : Shape := ⟨4, ![4, 12, 4096, 8]⟩
abbrev S_ : Shape := ⟨0, ![]⟩

class Facts : Prop where
  bcast_S_S4x12x4096x64 : S_.BroadcastsInDim S4x12x4096x64 (![] : Fin 0 → Fin S4x12x4096x64.rank)
  reducesTo_S4x12x4096x64_S_d0_1_2_3 : S4x12x4096x64.ReducesTo [0, 1, 2, 3] S_
  h_S_ : 0 < S_.numel
  bcast_S_S4x12x4096x8x8 : S_.BroadcastsInDim S4x12x4096x8x8 (![] : Fin 0 → Fin S4x12x4096x8x8.rank)
  reducesTo_S4x12x4096x8x8_S_d0_1_2_3_4 : S4x12x4096x8x8.ReducesTo [0, 1, 2, 3, 4] S_

variable [Facts]

def fn {F : FTy → Type} [FloatOps F] (main_arg0 : FVec F S4x12x4096x64 .f32) (main_arg1 : FVec F S4x12x4096x8x8 .f32) (main_arg2 : IVec S4x1x1x1 32) (main_arg3 : IVec S1x12x1x1 32) (main_arg4 : IVec S4x12x4096x8 32) : IVec S_ 1 :=
  let main_v0 : FVec F S4x12x4096x64 .f32 := Host.absf main_arg0
  let main_cst : FVec F S_ .f32 := constant S_ .f32 0x7F800000#32
  let main_v1 : FVec F S4x12x4096x64 .f32 := broadcastInDim S4x12x4096x64 ![] bcast_S_S4x12x4096x64 main_cst
  let main_v2 : IVec S4x12x4096x64 1 := cmpf .olt main_v0 main_v1
  let main_c : IVec S_ 1 := constantI S_ 1 1#1
  let main_v3 : IVec S_ 1 := (fun x v => Host.reduce IntOp.andi x v reducesTo_S4x12x4096x64_S_d0_1_2_3 h_S_) main_v2 main_c
  let main_v4 : FVec F S4x12x4096x8x8 .f32 := Host.absf main_arg1
  let main_cst_0 : FVec F S_ .f32 := constant S_ .f32 0x7F800000#32
  let main_v5 : FVec F S4x12x4096x8x8 .f32 := broadcastInDim S4x12x4096x8x8 ![] bcast_S_S4x12x4096x8x8 main_cst_0
  let main_v6 : IVec S4x12x4096x8x8 1 := cmpf .olt main_v4 main_v5
  let main_c_1 : IVec S_ 1 := constantI S_ 1 1#1
  let main_v7 : IVec S_ 1 := (fun x v => Host.reduce IntOp.andi x v reducesTo_S4x12x4096x8x8_S_d0_1_2_3_4 h_S_) main_v6 main_c_1
  let main_v8 : IVec S_ 1 := andi main_v3 main_v7
  main_v8
-- ==== Kernel.lean ====
abbrev S4x12x4096x64 : Shape := ⟨4, ![4, 12, 4096, 64]⟩
abbrev S4x12x4096x8x8 : Shape := ⟨5, ![4, 12, 4096, 8, 8]⟩
abbrev S4x1x1x1 : Shape := ⟨4, ![4, 1, 1, 1]⟩
abbrev S1x12x1x1 : Shape := ⟨4, ![1, 12, 1, 1]⟩
abbrev S4x12x4096x8 : Shape := ⟨4, ![4, 12, 4096, 8]⟩
abbrev S_ : Shape := ⟨0, ![]⟩
abbrev S4x12x4096x8x1 : Shape := ⟨5, ![4, 12, 4096, 8, 1]⟩
abbrev S4x12x4096x8x3 : Shape := ⟨5, ![4, 12, 4096, 8, 3]⟩
abbrev S4x12x4096x8x64 : Shape := ⟨5, ![4, 12, 4096, 8, 64]⟩
abbrev S196608x8x8 : Shape := ⟨3, ![196608, 8, 8]⟩
abbrev S196608x8x64 : Shape := ⟨3, ![196608, 8, 64]⟩
abbrev S1024x8x8 : Shape := ⟨3, ![1024, 8, 8]⟩
abbrev S1024x8x64 : Shape := ⟨3, ![1024, 8, 64]⟩
abbrev S4x12x32768x64 : Shape := ⟨4, ![4, 12, 32768, 64]⟩
abbrev S4x12x32768 : Shape := ⟨3, ![4, 12, 32768]⟩
abbrev S4 : Shape := ⟨1, ![4]⟩
abbrev S4x1x1 : Shape := ⟨3, ![4, 1, 1]⟩
abbrev S12 : Shape := ⟨1, ![12]⟩
abbrev S1x12x1 : Shape := ⟨3, ![1, 12, 1]⟩
abbrev S4x12x32768x1 : Shape := ⟨4, ![4, 12, 32768, 1]⟩
abbrev S4x12x32768x3 : Shape := ⟨4, ![4, 12, 32768, 3]⟩
abbrev S4x12x4096 : Shape := ⟨3, ![4, 12, 4096]⟩
abbrev S196608x64 : Shape := ⟨2, ![196608, 64]⟩
abbrev S196608x1 : Shape := ⟨2, ![196608, 1]⟩
abbrev S4096x64 : Shape := ⟨2, ![4096, 64]⟩
abbrev S4096x1 : Shape := ⟨2, ![4096, 1]⟩

abbrev nBuf : Space → Nat
  | .hbm => 108
  | .vmem => 12
  | .smem => 0
  | _ => 0

abbrev bufTy : (tb : Table) → Fin (tcTables nBuf tb) → BufTy
  | .hbm, ⟨0, _⟩ => ⟨S4x12x4096x64, .f32⟩
  | .hbm, ⟨1, _⟩ => ⟨S4x12x4096x8x8, .f32⟩
  | .hbm, ⟨2, _⟩ => ⟨S4x1x1x1, .i32⟩
  | .hbm, ⟨3, _⟩ => ⟨S1x12x1x1, .i32⟩
  | .hbm, ⟨4, _⟩ => ⟨S4x12x4096x8, .i32⟩
  | .hbm, ⟨5, _⟩ => ⟨S_, .i32⟩
  | .hbm, ⟨6, _⟩ => ⟨S4x1x1x1, .i32⟩
  | .hbm, ⟨7, _⟩ => ⟨S4x1x1x1, .i1⟩
  | .hbm, ⟨8, _⟩ => ⟨S_, .i32⟩
  | .hbm, ⟨9, _⟩ => ⟨S4x1x1x1, .i32⟩
  | .hbm, ⟨10, _⟩ => ⟨S4x1x1x1, .i32⟩
  | .hbm, ⟨11, _⟩ => ⟨S4x1x1x1, .i32⟩
  | .hbm, ⟨12, _⟩ => ⟨S_, .i32⟩
  | .hbm, ⟨13, _⟩ => ⟨S1x12x1x1, .i32⟩
  | .hbm, ⟨14, _⟩ => ⟨S1x12x1x1, .i1⟩
  | .hbm, ⟨15, _⟩ => ⟨S_, .i32⟩
  | .hbm, ⟨16, _⟩ => ⟨S1x12x1x1, .i32⟩
  | .hbm, ⟨17, _⟩ => ⟨S1x12x1x1, .i32⟩
  | .hbm, ⟨18, _⟩ => ⟨S1x12x1x1, .i32⟩
  | .hbm, ⟨19, _⟩ => ⟨S_, .i32⟩
  | .hbm, ⟨20, _⟩ => ⟨S4x12x4096x8, .i32⟩
  | .hbm, ⟨21, _⟩ => ⟨S4x12x4096x8, .i1⟩
  | .hbm, ⟨22, _⟩ => ⟨S_, .i32⟩
  | .hbm, ⟨23, _⟩ => ⟨S4x12x4096x8, .i32⟩
  | .hbm, ⟨24, _⟩ => ⟨S4x12x4096x8, .i32⟩
  | .hbm, ⟨25, _⟩ => ⟨S4x12x4096x8, .i32⟩
  | .hbm, ⟨26, _⟩ => ⟨S4x12x4096x8, .i32⟩
  | .hbm, ⟨27, _⟩ => ⟨S4x12x4096x8, .i32⟩
  | .hbm, ⟨28, _⟩ => ⟨S4x12x4096x8x1, .i32⟩
  | .hbm, ⟨29, _⟩ => ⟨S4x12x4096x8x1, .i32⟩
  | .hbm, ⟨30, _⟩ => ⟨S4x12x4096x8x1, .i32⟩
  | .hbm, ⟨31, _⟩ => ⟨S4x12x4096x8x3, .i32⟩
  | .hbm, ⟨32, _⟩ => ⟨S4x12x4096x8x64, .f32⟩
  | .hbm, ⟨33, _⟩ => ⟨S196608x8x8, .f32⟩
  | .hbm, ⟨34, _⟩ => ⟨S196608x8x64, .f32⟩
  | .hbm, ⟨35, _⟩ => ⟨S196608x8x64, .f32⟩
  | .hbm, ⟨36, _⟩ => ⟨S4x12x32768x64, .f32⟩
  | .hbm, ⟨37, _⟩ => ⟨S4x12x32768, .i32⟩
  | .hbm, ⟨38, _⟩ => ⟨S4, .i32⟩
  | .hbm, ⟨39, _⟩ => ⟨S4x1x1, .i32⟩
  | .hbm, ⟨40, _⟩ => ⟨S12, .i32⟩
  | .hbm, ⟨41, _⟩ => ⟨S1x12x1, .i32⟩
  | .hbm, ⟨42, _⟩ => ⟨S_, .f32⟩
  | .hbm, ⟨43, _⟩ => ⟨S4x12x4096x64, .f32⟩
  | .hbm, ⟨44, _⟩ => ⟨S_, .i32⟩
  | .hbm, ⟨45, _⟩ => ⟨S4x1x1, .i32⟩
  | .hbm, ⟨46, _⟩ => ⟨S4x1x1, .i1⟩
  | .hbm, ⟨47, _⟩ => ⟨S_, .i32⟩
  | .hbm, ⟨48, _⟩ => ⟨S4x1x1, .i32⟩
  | .hbm, ⟨49, _⟩ => ⟨S4x1x1, .i32⟩
  | .hbm, ⟨50, _⟩ => ⟨S4x1x1, .i32⟩
  | .hbm, ⟨51, _⟩ => ⟨S_, .i32⟩
  | .hbm, ⟨52, _⟩ => ⟨S1x12x1, .i32⟩
  | .hbm, ⟨53, _⟩ => ⟨S1x12x1, .i1⟩
  | .hbm, ⟨54, _⟩ => ⟨S_, .i32⟩
  | .hbm, ⟨55, _⟩ => ⟨S1x12x1, .i32⟩
  | .hbm, ⟨56, _⟩ => ⟨S1x12x1, .i32⟩
  | .hbm, ⟨57, _⟩ => ⟨S1x12x1, .i32⟩
  | .hbm, ⟨58, _⟩ => ⟨S_, .i32⟩
  | .hbm, ⟨59, _⟩ => ⟨S4x12x32768, .i32⟩
  | .hbm, ⟨60, _⟩ => ⟨S4x12x32768, .i1⟩
  | .hbm, ⟨61, _⟩ => ⟨S_, .i32⟩
  | .hbm, ⟨62, _⟩ => ⟨S4x12x32768, .i32⟩
  | .hbm, ⟨63, _⟩ => ⟨S4x12x32768, .i32⟩
  | .hbm, ⟨64, _⟩ => ⟨S4x12x32768, .i32⟩
  | .hbm, ⟨65, _⟩ => ⟨S4x12x32768, .i32⟩
  | .hbm, ⟨66, _⟩ => ⟨S4x12x32768, .i32⟩
  | .hbm, ⟨67, _⟩ => ⟨S4x12x32768x1, .i32⟩
  | .hbm, ⟨68, _⟩ => ⟨S4x12x32768x1, .i32⟩
  | .hbm, ⟨69, _⟩ => ⟨S4x12x32768x1, .i32⟩
  | .hbm, ⟨70, _⟩ => ⟨S4x12x32768x3, .i32⟩
  | .hbm, ⟨71, _⟩ => ⟨S4x12x4096x64, .f32⟩
  | .hbm, ⟨72, _⟩ => ⟨S_, .f32⟩
  | .hbm, ⟨73, _⟩ => ⟨S4x12x4096, .f32⟩
  | .hbm, ⟨74, _⟩ => ⟨S_, .i32⟩
  | .hbm, ⟨75, _⟩ => ⟨S4x1x1, .i32⟩
  | .hbm, ⟨76, _⟩ => ⟨S4x1x1, .i1⟩
  | .hbm, ⟨77, _⟩ => ⟨S_, .i32⟩
  | .hbm, ⟨78, _⟩ => ⟨S4x1x1, .i32⟩
  | .hbm, ⟨79, _⟩ => ⟨S4x1x1, .i32⟩
  | .hbm, ⟨80, _⟩ => ⟨S4x1x1, .i32⟩
  | .hbm, ⟨81, _⟩ => ⟨S_, .i32⟩
  | .hbm, ⟨82, _⟩ => ⟨S1x12x1, .i32⟩
  | .hbm, ⟨83, _⟩ => ⟨S1x12x1, .i1⟩
  | .hbm, ⟨84, _⟩ => ⟨S_, .i32⟩
  | .hbm, ⟨85, _⟩ => ⟨S1x12x1, .i32⟩
  | .hbm, ⟨86, _⟩ => ⟨S1x12x1, .i32⟩
  | .hbm, ⟨87, _⟩ => ⟨S1x12x1, .i32⟩
  | .hbm, ⟨88, _⟩ => ⟨S_, .i32⟩
  | .hbm, ⟨89, _⟩ => ⟨S4x12x32768, .i32⟩
  | .hbm, ⟨90, _⟩ => ⟨S4x12x32768, .i1⟩
  | .hbm, ⟨91, _⟩ => ⟨S_, .i32⟩
  | .hbm, ⟨92, _⟩ => ⟨S4x12x32768, .i32⟩
  | .hbm, ⟨93, _⟩ => ⟨S4x12x32768, .i32⟩
  | .hbm, ⟨94, _⟩ => ⟨S4x12x32768, .i32⟩
  | .hbm, ⟨95, _⟩ => ⟨S4x12x32768, .i32⟩
  | .hbm, ⟨96, _⟩ => ⟨S4x12x32768, .i32⟩
  | .hbm, ⟨97, _⟩ => ⟨S4x12x32768x1, .i32⟩
  | .hbm, ⟨98, _⟩ => ⟨S4x12x32768x1, .i32⟩
  | .hbm, ⟨99, _⟩ => ⟨S4x12x32768x1, .i32⟩
  | .hbm, ⟨100, _⟩ => ⟨S4x12x32768x3, .i32⟩
  | .hbm, ⟨101, _⟩ => ⟨S_, .f32⟩
  | .hbm, ⟨102, _⟩ => ⟨S4x12x32768, .f32⟩
  | .hbm, ⟨103, _⟩ => ⟨S4x12x4096, .f32⟩
  | .hbm, ⟨104, _⟩ => ⟨S196608x64, .f32⟩
  | .hbm, ⟨105, _⟩ => ⟨S196608x1, .f32⟩
  | .hbm, ⟨106, _⟩ => ⟨S196608x64, .f32⟩
  | .hbm, ⟨107, _⟩ => ⟨S4x12x4096x64, .f32⟩
  | .local _ .vmem, ⟨0, _⟩ => ⟨S1024x8x8, .f32⟩
  | .local _ .vmem, ⟨1, _⟩ => ⟨S1024x8x8, .f32⟩
  | .local _ .vmem, ⟨2, _⟩ => ⟨S1024x8x64, .f32⟩
  | .local _ .vmem, ⟨3, _⟩ => ⟨S1024x8x64, .f32⟩
  | .local _ .vmem, ⟨4, _⟩ => ⟨S1024x8x64, .f32⟩
  | .local _ .vmem, ⟨5, _⟩ => ⟨S1024x8x64, .f32⟩
  | .local _ .vmem, ⟨6, _⟩ => ⟨S4096x64, .f32⟩
  | .local _ .vmem, ⟨7, _⟩ => ⟨S4096x64, .f32⟩
  | .local _ .vmem, ⟨8, _⟩ => ⟨S4096x1, .f32⟩
  | .local _ .vmem, ⟨9, _⟩ => ⟨S4096x1, .f32⟩
  | .local _ .vmem, ⟨10, _⟩ => ⟨S4096x64, .f32⟩
  | .local _ .vmem, ⟨11, _⟩ => ⟨S4096x64, .f32⟩
  | _, _ => ⟨S4x12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_c_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_14 : Ref sig .tc := ⟨.hbm, 81, rfl⟩
abbrev main_v60 : Ref sig .tc := ⟨.hbm, 82, rfl⟩
abbrev main_v61 : Ref sig .tc := ⟨.hbm, 83, rfl⟩
abbrev main_c_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_16 : Ref sig .tc := ⟨.hbm, 88, rfl⟩
abbrev main_v65 : Ref sig .tc := ⟨.hbm, 89, rfl⟩
abbrev main_v66 : Ref sig .tc := ⟨.hbm, 90, rfl⟩
abbrev main_c_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_18 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![192], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x8x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S4x1x1x1 : S_.BroadcastsInDim S4x1x1x1 (![] : Fin 0 → Fin S4x1x1x1.rank)
  bcast_S_S1x12x1x1 : S_.BroadcastsInDim S1x12x1x1 (![] : Fin 0 → Fin S1x12x1x1.rank)
  bcast_S_S4x12x4096x8 : S_.BroadcastsInDim S4x12x4096x8 (![] : Fin 0 → Fin S4x12x4096x8.rank)
  bcast_S4x1x1x1_S4x12x4096x8_0_1_2_3 : S4x1x1x1.BroadcastsInDim S4x12x4096x8 (![0, 1, 2, 3] : Fin 4 → Fin S4x12x4096x8.rank)
  bcast_S1x12x1x1_S4x12x4096x8_0_1_2_3 : S1x12x1x1.BroadcastsInDim S4x12x4096x8 (![0, 1, 2, 3] : Fin 4 → Fin S4x12x4096x8.rank)
  bcast_S4x12x4096x8_S4x12x4096x8x1_0_1_2_3 : S4x12x4096x8.BroadcastsInDim S4x12x4096x8x1 (![0, 1, 2, 3] : Fin 4 → Fin S4x12x4096x8x1.rank)
  concatenates_S4x12x4096x8x1_S4x12x4096x8x1_S4x12x4096x8x1_S4x12x4096x8x3_d4 : Shape.Concatenates [S4x12x4096x8x1, S4x12x4096x8x1, S4x12x4096x8x1] S4x12x4096x8x3 4
  shapeCasts_S4x12x4096x8x8_S196608x8x8 : S4x12x4096x8x8.ShapeCasts S196608x8x8
  shapeCasts_S4x12x4096x8x64_S196608x8x64 : S4x12x4096x8x64.ShapeCasts S196608x8x64
  inb_S1024x8x8_S1024x8x8_0_0_0 : ∀ a, (![0, 0, 0] : Fin 3 → Nat) a + S1024x8x8.size a ≤ S1024x8x8.size a
  h_S1024x8x8 : 0 < S1024x8x8.numel
  shapeCasts_S1024x8x8_S1024x8x8 : S1024x8x8.ShapeCasts S1024x8x8
  bitsLt_bf16_f32 : FTy.bits .bf16 < FTy.bits .f32
  inb_S1024x8x64_S1024x8x64_0_0_0 : ∀ a, (![0, 0, 0] : Fin 3 → Nat) a + S1024x8x64.size a ≤ S1024x8x64.size a
  h_S1024x8x64 : 0 < S1024x8x64.numel
  shapeCasts_S1024x8x64_S1024x8x64 : S1024x8x64.ShapeCasts S1024x8x64
  shapeCasts_S196608x8x64_S4x12x32768x64 : S196608x8x64.ShapeCasts S4x12x32768x64
  shapeCasts_S4x12x4096x8_S4x12x32768 : S4x12x4096x8.ShapeCasts S4x12x32768
  shapeCasts_S4_S4x1x1 : S4.ShapeCasts S4x1x1
  shapeCasts_S12_S1x12x1 : S12.ShapeCasts S1x12x1
  bcast_S_S4x12x4096x64 : S_.BroadcastsInDim S4x12x4096x64 (![] : Fin 0 → Fin S4x12x4096x64.rank)
  bcast_S_S4x1x1 : S_.BroadcastsInDim S4x1x1 (![] : Fin 0 → Fin S4x1x1.rank)
  bcast_S_S1x12x1 : S_.BroadcastsInDim S1x12x1 (![] : Fin 0 → Fin S1x12x1.rank)
  bcast_S_S4x12x32768 : S_.BroadcastsInDim S4x12x32768 (![] : Fin 0 → Fin S4x12x32768.rank)
  bcast_S4x1x1_S4x12x32768_0_1_2 : S4x1x1.BroadcastsInDim S4x12x32768 (![0, 1, 2] : Fin 3 → Fin S4x12x32768.rank)
  bcast_S1x12x1_S4x12x32768_0_1_2 : S1x12x1.BroadcastsInDim S4x12x32768 (![0, 1, 2] : Fin 3 → Fin S4x12x32768.rank)
  bcast_S4x12x32768_S4x12x32768x1_0_1_2 : S4x12x32768.BroadcastsInDim S4x12x32768x1 (![0, 1, 2] : Fin 3 → Fin S4x12x32768x1.rank)
  concatenates_S4x12x32768x1_S4x12x32768x1_S4x12x32768x1_S4x12x32768x3_d3 : Shape.Concatenates [S4x12x32768x1, S4x12x32768x1, S4x12x32768x1] S4x12x32768x3 3
  bcast_S_S4x12x4096 : S_.BroadcastsInDim S4x12x4096 (![] : Fin 0 → Fin S4x12x4096.rank)
  shapeCasts_S4x12x4096x64_S196608x64 : S4x12x4096x64.ShapeCasts S196608x64
  shapeCasts_S4x12x4096_S196608x1 : S4x12x4096.ShapeCasts S196608x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S4096x1_S4096x64 : S4096x1.Broadcasts S4096x64
  shapeCasts_S196608x64_S4x12x4096x64 : S196608x64.ShapeCasts S4x12x4096x64
  gather_S4x12x4096x64_S4x12x4096x8x3_S4x12x4096x8x64_4_012_n_n_012_4_11164_wf : GatherDims.WF S4x12x4096x64 S4x12x4096x8x3 S4x12x4096x8x64 [4] [0, 1, 2] [] [0, 1, 2] [] 4 ![1, 1, 1, 64]
  dot_S1024x8x8_S1024x8x64_S1024x8x64_2_1_1_2_0_0_wf : DotDims.WF S1024x8x8 S1024x8x64 S1024x8x64 [2] [1] [1] [2] [0] [0]
  scatter_S4x12x4096x64_S4x12x32768x3_S4x12x32768x64_3_012_012_3_wf : ScatterDims.WF S4x12x4096x64 S4x12x32768x3 S4x12x32768x64 [3] [0, 1, 2] [0, 1, 2] 3
  scatter_S4x12x4096_S4x12x32768x3_S4x12x32768_n_012_012_3_wf : ScatterDims.WF S4x12x4096 S4x12x32768x3 S4x12x32768 [] [0, 1, 2] [0, 1, 2] 3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x8.size a ≤ S196608x8x8.size a
  hwx0_0 : ∀ i : grid0.Coords, EltTy.bits .f32 = 32 ∨ (Rect.block (s := S196608x8x8) S1024x8x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x64.size a ≤ S196608x8x64.size a
  hwx0_1 : ∀ i : grid0.Coords, EltTy.bits .f32 = 32 ∨ (Rect.block (s := S196608x8x64) S1024x8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8x64.size a ≤ S196608x8x64.size a
  hwx0_2 : ∀ i : grid0.Coords, EltTy.bits .f32 = 32 ∨ (Rect.block (s := S196608x8x64) S1024x8x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S196608x64.size a
  hwx1_0 : ∀ i : grid1.Coords, EltTy.bits .f32 = 32 ∨ (Rect.block (s := S196608x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S196608x1.size a
  hwx1_1 : ∀ i : grid1.Coords, EltTy.bits .f32 = 32 ∨ (Rect.block (s := S196608x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S196608x64.size a
  hwx1_2 : ∀ i : grid1.Coords, EltTy.bits .f32 = 32 ∨ (Rect.block (s := S196608x64) S4096x64.size (cc1_transform_2 i) (hinb1_2 i)).WholeWords (EltTy.packing .f32)

variable [Facts₀]

def gather_S4x12x4096x64_S4x12x4096x8x3_S4x12x4096x8x64_4_012_n_n_012_4_11164 : GatherDims S4x12x4096x64 S4x12x4096x8x3 S4x12x4096x8x64 where
  offsetDims := [4]
  collapsedSliceDims := [0, 1, 2]
  operandBatchingDims := []
  startIndicesBatchingDims := []
  startIndexMap := [0, 1, 2]
  indexVectorDim := 4
  sliceSizes := ![1, 1, 1, 64]
  wf := gather_S4x12x4096x64_S4x12x4096x8x3_S4x12x4096x8x64_4_012_n_n_012_4_11164_wf
def dot_S1024x8x8_S1024x8x64_S1024x8x64_2_1_1_2_0_0 : DotDims S1024x8x8 S1024x8x64 S1024x8x64 where
  lhsContracting := [2]
  rhsContracting := [1]
  lhsNonContracting := [1]
  rhsNonContracting := [2]
  lhsBatch := [0]
  rhsBatch := [0]
  wf := dot_S1024x8x8_S1024x8x64_S1024x8x64_2_1_1_2_0_0_wf
def scatter_S4x12x4096x64_S4x12x32768x3_S4x12x32768x64_3_012_012_3 : ScatterDims S4x12x4096x64 S4x12x32768x3 S4x12x32768x64 where
  updateWindowDims := [3]
  insertedWindowDims := [0, 1, 2]
  scatterDimsToOperandDims := [0, 1, 2]
  indexVectorDim := 3
  wf := scatter_S4x12x4096x64_S4x12x32768x3_S4x12x32768x64_3_012_012_3_wf
def scatter_S4x12x4096_S4x12x32768x3_S4x12x32768_n_012_012_3 : ScatterDims S4x12x4096 S4x12x32768x3 S4x12x32768 where
  updateWindowDims := []
  insertedWindowDims := [0, 1, 2]
  scatterDimsToOperandDims := [0, 1, 2]
  indexVectorDim := 3
  wf := scatter_S4x12x4096_S4x12x32768x3_S4x12x32768_n_012_012_3_wf

abbrev win0_0 : Pipeline.Window sig grid0 :=
  Pipeline.Window.ofSpec (Memref.whole main_v22) S1024x8x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v78) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v80) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x12x4096x64 : Shape := ⟨4, ![4, 12, 4096, 64]⟩
abbrev S4x12x4096x8x8 : Shape := ⟨5, ![4, 12, 4096, 8, 8]⟩
abbrev S4x1x1x1 : Shape := ⟨4, ![4, 1, 1, 1]⟩
abbrev S1x12x1x1 : Shape := ⟨4, ![1, 12, 1, 1]⟩
abbrev S4x12x4096x8 : Shape := ⟨4, ![4, 12, 4096, 8]⟩
abbrev S_ : Shape := ⟨0, ![]⟩
abbrev S4x12x4096x8x1 : Shape := ⟨5, ![4, 12, 4096, 8, 1]⟩
abbrev S4x12x4096x8x3 : Shape := ⟨5, ![4, 12, 4096, 8, 3]⟩
abbrev S4x12x4096x8x64 : Shape := ⟨5, ![4, 12, 4096, 8, 64]⟩
abbrev S4x12x32768x64 : Shape := ⟨4, ![4, 12, 32768, 64]⟩
abbrev S4x12x32768 : Shape := ⟨3, ![4, 12, 32768]⟩
abbrev S4 : Shape := ⟨1, ![4]⟩
abbrev S4x1x1 : Shape := ⟨3, ![4, 1, 1]⟩
abbrev S12 : Shape := ⟨1, ![12]⟩
abbrev S1x12x1 : Shape := ⟨3, ![1, 12, 1]⟩
abbrev S4x12x32768x1 : Shape := ⟨4, ![4, 12, 32768, 1]⟩
abbrev S4x12x32768x3 : Shape := ⟨4, ![4, 12, 32768, 3]⟩
abbrev S4x12x4096 : Shape := ⟨3, ![4, 12, 4096]⟩
abbrev S4x12x4096x1 : Shape := ⟨4, ![4, 12, 4096, 1]⟩

abbrev nBuf : Space → Nat
  | .hbm => 105
  | .vmem => 0
  | .smem => 0
  | _ => 0

abbrev bufTy : (tb : Table) → Fin (tcTables nBuf tb) → BufTy
  | .hbm, ⟨0, _⟩ => ⟨S4x12x4096x64, .f32⟩
  | .hbm, ⟨1, _⟩ => ⟨S4x12x4096x8x8, .f32⟩
  | .hbm, ⟨2, _⟩ => ⟨S4x1x1x1, .i32⟩
  | .hbm, ⟨3, _⟩ => ⟨S1x12x1x1, .i32⟩
  | .hbm, ⟨4, _⟩ => ⟨S4x12x4096x8, .i32⟩
  | .hbm, ⟨5, _⟩ => ⟨S_, .i32⟩
  | .hbm, ⟨6, _⟩ => ⟨S4x1x1x1, .i32⟩
  | .hbm, ⟨7, _⟩ => ⟨S4x1x1x1, .i1⟩
  | .hbm, ⟨8, _⟩ => ⟨S_, .i32⟩
  | .hbm, ⟨9, _⟩ => ⟨S4x1x1x1, .i32⟩
  | .hbm, ⟨10, _⟩ => ⟨S4x1x1x1, .i32⟩
  | .hbm, ⟨11, _⟩ => ⟨S4x1x1x1, .i32⟩
  | .hbm, ⟨12, _⟩ => ⟨S_, .i32⟩
  | .hbm, ⟨13, _⟩ => ⟨S1x12x1x1, .i32⟩
  | .hbm, ⟨14, _⟩ => ⟨S1x12x1x1, .i1⟩
  | .hbm, ⟨15, _⟩ => ⟨S_, .i32⟩
  | .hbm, ⟨16, _⟩ => ⟨S1x12x1x1, .i32⟩
  | .hbm, ⟨17, _⟩ => ⟨S1x12x1x1, .i32⟩
  | .hbm, ⟨18, _⟩ => ⟨S1x12x1x1, .i32⟩
  | .hbm, ⟨19, _⟩ => ⟨S_, .i32⟩
  | .hbm, ⟨20, _⟩ => ⟨S4x12x4096x8, .i32⟩
  | .hbm, ⟨21, _⟩ => ⟨S4x12x4096x8, .i1⟩
  | .hbm, ⟨22, _⟩ => ⟨S_, .i32⟩
  | .hbm, ⟨23, _⟩ => ⟨S4x12x4096x8, .i32⟩
  | .hbm, ⟨24, _⟩ => ⟨S4x12x4096x8, .i32⟩
  | .hbm, ⟨25, _⟩ => ⟨S4x12x4096x8, .i32⟩
  | .hbm, ⟨26, _⟩ => ⟨S4x12x4096x8, .i32⟩
  | .hbm, ⟨27, _⟩ => ⟨S4x12x4096x8, .i32⟩
  | .hbm, ⟨28, _⟩ => ⟨S4x12x4096x8x1, .i32⟩
  | .hbm, ⟨29, _⟩ => ⟨S4x12x4096x8x1, .i32⟩
  | .hbm, ⟨30, _⟩ => ⟨S4x12x4096x8x1, .i32⟩
  | .hbm, ⟨31, _⟩ => ⟨S4x12x4096x8x3, .i32⟩
  | .hbm, ⟨32, _⟩ => ⟨S4x12x4096x8x64, .f32⟩
  | .hbm, ⟨33, _⟩ => ⟨S4x12x4096x8x64, .f32⟩
  | .hbm, ⟨34, _⟩ => ⟨S4x12x32768x64, .f32⟩
  | .hbm, ⟨35, _⟩ => ⟨S4x12x32768, .i32⟩
  | .hbm, ⟨36, _⟩ => ⟨S4, .i32⟩
  | .hbm, ⟨37, _⟩ => ⟨S4x1x1, .i32⟩
  | .hbm, ⟨38, _⟩ => ⟨S12, .i32⟩
  | .hbm, ⟨39, _⟩ => ⟨S1x12x1, .i32⟩
  | .hbm, ⟨40, _⟩ => ⟨S_, .f32⟩
  | .hbm, ⟨41, _⟩ => ⟨S4x12x4096x64, .f32⟩
  | .hbm, ⟨42, _⟩ => ⟨S_, .i32⟩
  | .hbm, ⟨43, _⟩ => ⟨S4x1x1, .i32⟩
  | .hbm, ⟨44, _⟩ => ⟨S4x1x1, .i1⟩
  | .hbm, ⟨45, _⟩ => ⟨S_, .i32⟩
  | .hbm, ⟨46, _⟩ => ⟨S4x1x1, .i32⟩
  | .hbm, ⟨47, _⟩ => ⟨S4x1x1, .i32⟩
  | .hbm, ⟨48, _⟩ => ⟨S4x1x1, .i32⟩
  | .hbm, ⟨49, _⟩ => ⟨S_, .i32⟩
  | .hbm, ⟨50, _⟩ => ⟨S1x12x1, .i32⟩
  | .hbm, ⟨51, _⟩ => ⟨S1x12x1, .i1⟩
  | .hbm, ⟨52, _⟩ => ⟨S_, .i32⟩
  | .hbm, ⟨53, _⟩ => ⟨S1x12x1, .i32⟩
  | .hbm, ⟨54, _⟩ => ⟨S1x12x1, .i32⟩
  | .hbm, ⟨55, _⟩ => ⟨S1x12x1, .i32⟩
  | .hbm, ⟨56, _⟩ => ⟨S_, .i32⟩
  | .hbm, ⟨57, _⟩ => ⟨S4x12x32768, .i32⟩
  | .hbm, ⟨58, _⟩ => ⟨S4x12x32768, .i1⟩
  | .hbm, ⟨59, _⟩ => ⟨S_, .i32⟩
  | .hbm, ⟨60, _⟩ => ⟨S4x12x32768, .i32⟩
  | .hbm, ⟨61, _⟩ => ⟨S4x12x32768, .i32⟩
  | .hbm, ⟨62, _⟩ => ⟨S4x12x32768, .i32⟩
  | .hbm, ⟨63, _⟩ => ⟨S4x12x32768, .i32⟩
  | .hbm, ⟨64, _⟩ => ⟨S4x12x32768, .i32⟩
  | .hbm, ⟨65, _⟩ => ⟨S4x12x32768x1, .i32⟩
  | .hbm, ⟨66, _⟩ => ⟨S4x12x32768x1, .i32⟩
  | .hbm, ⟨67, _⟩ => ⟨S4x12x32768x1, .i32⟩
  | .hbm, ⟨68, _⟩ => ⟨S4x12x32768x3, .i32⟩
  | .hbm, ⟨69, _⟩ => ⟨S4x12x4096x64, .f32⟩
  | .hbm, ⟨70, _⟩ => ⟨S_, .f32⟩
  | .hbm, ⟨71, _⟩ => ⟨S4x12x4096, .f32⟩
  | .hbm, ⟨72, _⟩ => ⟨S_, .i32⟩
  | .hbm, ⟨73, _⟩ => ⟨S4x1x1, .i32⟩
  | .hbm, ⟨74, _⟩ => ⟨S4x1x1, .i1⟩
  | .hbm, ⟨75, _⟩ => ⟨S_, .i32⟩
  | .hbm, ⟨76, _⟩ => ⟨S4x1x1, .i32⟩
  | .hbm, ⟨77, _⟩ => ⟨S4x1x1, .i32⟩
  | .hbm, ⟨78, _⟩ => ⟨S4x1x1, .i32⟩
  | .hbm, ⟨79, _⟩ => ⟨S_, .i32⟩
  | .hbm, ⟨80, _⟩ => ⟨S1x12x1, .i32⟩
  | .hbm, ⟨81, _⟩ => ⟨S1x12x1, .i1⟩
  | .hbm, ⟨82, _⟩ => ⟨S_, .i32⟩
  | .hbm, ⟨83, _⟩ => ⟨S1x12x1, .i32⟩
  | .hbm, ⟨84, _⟩ => ⟨S1x12x1, .i32⟩
  | .hbm, ⟨85, _⟩ => ⟨S1x12x1, .i32⟩
  | .hbm, ⟨86, _⟩ => ⟨S_, .i32⟩
  | .hbm, ⟨87, _⟩ => ⟨S4x12x32768, .i32⟩
  | .hbm, ⟨88, _⟩ => ⟨S4x12x32768, .i1⟩
  | .hbm, ⟨89, _⟩ => ⟨S_, .i32⟩
  | .hbm, ⟨90, _⟩ => ⟨S4x12x32768, .i32⟩
  | .hbm, ⟨91, _⟩ => ⟨S4x12x32768, .i32⟩
  | .hbm, ⟨92, _⟩ => ⟨S4x12x32768, .i32⟩
  | .hbm, ⟨93, _⟩ => ⟨S4x12x32768, .i32⟩
  | .hbm, ⟨94, _⟩ => ⟨S4x12x32768, .i32⟩
  | .hbm, ⟨95, _⟩ => ⟨S4x12x32768x1, .i32⟩
  | .hbm, ⟨96, _⟩ => ⟨S4x12x32768x1, .i32⟩
  | .hbm, ⟨97, _⟩ => ⟨S4x12x32768x1, .i32⟩
  | .hbm, ⟨98, _⟩ => ⟨S4x12x32768x3, .i32⟩
  | .hbm, ⟨99, _⟩ => ⟨S_, .f32⟩
  | .hbm, ⟨100, _⟩ => ⟨S4x12x32768, .f32⟩
  | .hbm, ⟨101, _⟩ => ⟨S4x12x4096, .f32⟩
  | .hbm, ⟨102, _⟩ => ⟨S4x12x4096x1, .f32⟩
  | .hbm, ⟨103, _⟩ => ⟨S4x12x4096x64, .f32⟩
  | .hbm, ⟨104, _⟩ => ⟨S4x12x4096x64, .f32⟩
  | _, _ => ⟨S4x12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_c_12 : Ref sig .tc := ⟨.hbm, 72, rfl⟩
abbrev main_v53 : Ref sig .tc := ⟨.hbm, 73, rfl⟩
abbrev main_v54 : Ref sig .tc := ⟨.hbm, 74, rfl⟩
abbrev main_c_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_v59 : Ref sig .tc := ⟨.hbm, 81, rfl⟩
abbrev main_c_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_16 : Ref sig .tc := ⟨.hbm, 86, rfl⟩
abbrev main_v63 : Ref sig .tc := ⟨.hbm, 87, rfl⟩
abbrev main_v64 : Ref sig .tc := ⟨.hbm, 88, rfl⟩
abbrev main_c_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_18 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]

class Facts₀ : Prop where
  bcast_S_S4x1x1x1 : S_.BroadcastsInDim S4x1x1x1 (![] : Fin 0 → Fin S4x1x1x1.rank)
  bcast_S_S1x12x1x1 : S_.BroadcastsInDim S1x12x1x1 (![] : Fin 0 → Fin S1x12x1x1.rank)
  bcast_S_S4x12x4096x8 : S_.BroadcastsInDim S4x12x4096x8 (![] : Fin 0 → Fin S4x12x4096x8.rank)
  bcast_S4x1x1x1_S4x12x4096x8_0_1_2_3 : S4x1x1x1.BroadcastsInDim S4x12x4096x8 (![0, 1, 2, 3] : Fin 4 → Fin S4x12x4096x8.rank)
  bcast_S1x12x1x1_S4x12x4096x8_0_1_2_3 : S1x12x1x1.BroadcastsInDim S4x12x4096x8 (![0, 1, 2, 3] : Fin 4 → Fin S4x12x4096x8.rank)
  bcast_S4x12x4096x8_S4x12x4096x8x1_0_1_2_3 : S4x12x4096x8.BroadcastsInDim S4x12x4096x8x1 (![0, 1, 2, 3] : Fin 4 → Fin S4x12x4096x8x1.rank)
  concatenates_S4x12x4096x8x1_S4x12x4096x8x1_S4x12x4096x8x1_S4x12x4096x8x3_d4 : Shape.Concatenates [S4x12x4096x8x1, S4x12x4096x8x1, S4x12x4096x8x1] S4x12x4096x8x3 4
  shapeCasts_S4x12x4096x8x64_S4x12x32768x64 : S4x12x4096x8x64.ShapeCasts S4x12x32768x64
  shapeCasts_S4x12x4096x8_S4x12x32768 : S4x12x4096x8.ShapeCasts S4x12x32768
  shapeCasts_S4_S4x1x1 : S4.ShapeCasts S4x1x1
  shapeCasts_S12_S1x12x1 : S12.ShapeCasts S1x12x1
  bcast_S_S4x12x4096x64 : S_.BroadcastsInDim S4x12x4096x64 (![] : Fin 0 → Fin S4x12x4096x64.rank)
  bcast_S_S4x1x1 : S_.BroadcastsInDim S4x1x1 (![] : Fin 0 → Fin S4x1x1.rank)
  bcast_S_S1x12x1 : S_.BroadcastsInDim S1x12x1 (![] : Fin 0 → Fin S1x12x1.rank)
  bcast_S_S4x12x32768 : S_.BroadcastsInDim S4x12x32768 (![] : Fin 0 → Fin S4x12x32768.rank)
  bcast_S4x1x1_S4x12x32768_0_1_2 : S4x1x1.BroadcastsInDim S4x12x32768 (![0, 1, 2] : Fin 3 → Fin S4x12x32768.rank)
  bcast_S1x12x1_S4x12x32768_0_1_2 : S1x12x1.BroadcastsInDim S4x12x32768 (![0, 1, 2] : Fin 3 → Fin S4x12x32768.rank)
  bcast_S4x12x32768_S4x12x32768x1_0_1_2 : S4x12x32768.BroadcastsInDim S4x12x32768x1 (![0, 1, 2] : Fin 3 → Fin S4x12x32768x1.rank)
  concatenates_S4x12x32768x1_S4x12x32768x1_S4x12x32768x1_S4x12x32768x3_d3 : Shape.Concatenates [S4x12x32768x1, S4x12x32768x1, S4x12x32768x1] S4x12x32768x3 3
  bcast_S_S4x12x4096 : S_.BroadcastsInDim S4x12x4096 (![] : Fin 0 → Fin S4x12x4096.rank)
  bcast_S4x12x4096_S4x12x4096x1_0_1_2 : S4x12x4096.BroadcastsInDim S4x12x4096x1 (![0, 1, 2] : Fin 3 → Fin S4x12x4096x1.rank)
  bcast_S4x12x4096x1_S4x12x4096x64_0_1_2_3 : S4x12x4096x1.BroadcastsInDim S4x12x4096x64 (![0, 1, 2, 3] : Fin 4 → Fin S4x12x4096x64.rank)
  gather_S4x12x4096x64_S4x12x4096x8x3_S4x12x4096x8x64_4_012_n_n_012_4_11164_wf : GatherDims.WF S4x12x4096x64 S4x12x4096x8x3 S4x12x4096x8x64 [4] [0, 1, 2] [] [0, 1, 2] [] 4 ![1, 1, 1, 64]
  dot_S4x12x4096x8x8_S4x12x4096x8x64_S4x12x4096x8x64_4_3_3_4_012_012_wf : DotDims.WF S4x12x4096x8x8 S4x12x4096x8x64 S4x12x4096x8x64 [4] [3] [3] [4] [0, 1, 2] [0, 1, 2]
  scatter_S4x12x4096x64_S4x12x32768x3_S4x12x32768x64_3_012_012_3_wf : ScatterDims.WF S4x12x4096x64 S4x12x32768x3 S4x12x32768x64 [3] [0, 1, 2] [0, 1, 2] 3
  scatter_S4x12x4096_S4x12x32768x3_S4x12x32768_n_012_012_3_wf : ScatterDims.WF S4x12x4096 S4x12x32768x3 S4x12x32768 [] [0, 1, 2] [0, 1, 2] 3

variable [Facts₀]

def gather_S4x12x4096x64_S4x12x4096x8x3_S4x12x4096x8x64_4_012_n_n_012_4_11164 : GatherDims S4x12x4096x64 S4x12x4096x8x3 S4x12x4096x8x64 where
  offsetDims := [4]
  collapsedSliceDims := [0, 1, 2]
  operandBatchingDims := []
  startIndicesBatchingDims := []
  startIndexMap := [0, 1, 2]
  indexVectorDim := 4
  sliceSizes := ![1, 1, 1, 64]
  wf := gather_S4x12x4096x64_S4x12x4096x8x3_S4x12x4096x8x64_4_012_n_n_012_4_11164_wf
def dot_S4x12x4096x8x8_S4x12x4096x8x64_S4x12x4096x8x64_4_3_3_4_012_012 : DotDims S4x12x4096x8x8 S4x12x4096x8x64 S4x12x4096x8x64 where
  lhsContracting := [4]
  rhsContracting := [3]
  lhsNonContracting := [3]
  rhsNonContracting := [4]
  lhsBatch := [0, 1, 2]
  rhsBatch := [0, 1, 2]
  wf := dot_S4x12x4096x8x8_S4x12x4096x8x64_S4x12x4096x8x64_4_3_3_4_012_012_wf
def scatter_S4x12x4096x64_S4x12x32768x3_S4x12x32768x64_3_012_012_3 : ScatterDims S4x12x4096x64 S4x12x32768x3 S4x12x32768x64 where
  updateWindowDims := [3]
  insertedWindowDims := [0, 1, 2]
  scatterDimsToOperandDims := [0, 1, 2]
  indexVectorDim := 3
  wf := scatter_S4x12x4096x64_S4x12x32768x3_S4x12x32768x64_3_012_012_3_wf
def scatter_S4x12x4096_S4x12x32768x3_S4x12x32768_n_012_012_3 : ScatterDims S4x12x4096 S4x12x32768x3 S4x12x32768 where
  updateWindowDims := []
  insertedWindowDims := [0, 1, 2]
  scatterDimsToOperandDims := [0, 1, 2]
  indexVectorDim := 3
  wf := scatter_S4x12x4096_S4x12x32768x3_S4x12x32768_n_012_012_3_wf

class Facts : Prop extends Facts₀ where

variable [Facts]
-- ==== Proof.KBody0.lean ====
/- The first region (the node-wise 8×8 by 8×64 products), at any float instance and at any contents `V` of the
   TensorCore's buffers when the region is entered: the block of each operand a grid point sees, what the body
   leaves in the output's staging buffer (one whole-block store of the product of the two input blocks), the
   body's triple, the proof data of the pipeline and its body obligation. -/
import proofs.«142184_j10161892622587_2_alg».proof.Proof.Gen.Kernel.Launch
import proofs.«142184_j10161892622587_2_alg».proof.Proof.Gen.Kernel.Skeleton
import proofs.«142184_j10161892622587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: 1024 consecutive nodes of the operand's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency operand's staging buffer holds its block at every point, whatever proof data has `V`'s arrays
    and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the gathered-features operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_0 : Rect S1024x8x8 := Rect.unit (s := S1024x8x8) ![0, 0, 0] S1024x8x8.size inb_S1024x8x8_S1024x8x8_0_0_0
abbrev r0_1 : Rect S1024x8x64 := Rect.unit (s := S1024x8x64) ![0, 0, 0] S1024x8x64.size inb_S1024x8x64_S1024x8x64_0_0_0

/-- The output's staging buffer after the body: its one store, of the product of the two input blocks. -/
def out0_2 (x0 : Vec F S1024x8x8 .f32) (x1 : Vec F S1024x8x64 .f32) : Vec F S1024x8x64 .f32 :=
  View.canon [⟨r0_1, k0_pay1 (View.ld x0 r0_0) (View.ld x1 r0_1)⟩]

/-- The one store covers the buffer. -/
theorem cover0_2 (p0 : Vec F S1024x8x64 .f32) (y : S1024x8x64.Idx) :
    ∃ pc ∈ ([⟨r0_1, p0⟩] : List (View.Piece (Elt F) S1024x8x64 .f32)), y ∈ pc.1.set :=
  View.cover_of_tiled [⟨r0_1, p0⟩] S1024x8x64.size (by rfl) y

set_option maxHeartbeats 1000000 in
/-- The body on whole staging buffers, the inputs' at read contents and the output's at anything, runs to the
    continuation with the inputs' as they were and the output's at `out0_2` of them. -/
theorem sound_kernel0 (c : Dev nD) (E : Set ℕ) (i : grid0.Coords) (arg1 : Memref sig .tc .vmem S1024x8x8 .f32) (harg1 : arg1.IsWhole) (arg2 : Memref sig .tc .vmem S1024x8x64 .f32) (harg2 : arg2.IsWhole) (arg3 : Memref sig .tc .vmem S1024x8x64 .f32) (harg3 : arg3.IsWhole)
    (x0 : Vec F S1024x8x8 .f32) (x1 : Vec F S1024x8x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at a
    point each input's buffer at its block and the output's at the product of the two blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBody1.lean ====
/- The second region (every row of the aggregated array divided by the row's count), at any float instance and at
   any contents `V` of the TensorCore's buffers when the region is entered: the block of each operand a grid point
   sees, what the body leaves in the output's staging buffer (one whole-block store of the quotient), the body's
   triple, the proof data of the pipeline and its body obligation. -/
import proofs.«142184_j10161892622587_2_alg».proof.Proof.Gen.Kernel.Launch
import proofs.«142184_j10161892622587_2_alg».proof.Proof.Gen.Kernel.Skeleton
import proofs.«142184_j10161892622587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: 4096 consecutive rows of the operand's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated operand's staging buffer holds its block at every point, whatever proof data has `V`'s arrays
    and leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the column of counts. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev r1_0 : Rect S4096x64 := Rect.unit (s := S4096x64) ![0, 0] S4096x64.size inb_S4096x64_S4096x64_0_0
abbrev r1_1 : Rect S4096x1 := Rect.unit (s := S4096x1) ![0, 0] S4096x1.size inb_S4096x1_S4096x1_0_0

/-- The output's staging buffer after the body: its one store, of the rows divided by their counts. -/
def out1_2 (x0 : Vec F S4096x64 .f32) (x1 : Vec F S4096x1 .f32) : Vec F S4096x64 .f32 :=
  View.canon [⟨r1_0, k1_pay1 (View.ld x1 r1_1) (View.ld x0 r1_0)⟩]

/-- The one store covers the buffer. -/
theorem cover1_2 (p0 : Vec F S4096x64 .f32) (y : S4096x64.Idx) :
    ∃ pc ∈ ([⟨r1_0, p0⟩] : List (View.Piece (Elt F) S4096x64 .f32)), y ∈ pc.1.set :=
  View.cover_of_tiled [⟨r1_0, p0⟩] S4096x64.size (by rfl) y

set_option maxHeartbeats 1000000 in
/-- The body on whole staging buffers, the inputs' at read contents and the output's at anything, runs to the
    continuation with the inputs' as they were and the output's at `out1_2` of them. -/
theorem sound_kernel1 (c : Dev nD) (E : Set ℕ) (i : grid1.Coords) (arg1 : Memref sig .tc .vmem S4096x64 .f32) (harg1 : arg1.IsWhole) (arg2 : Memref sig .tc .vmem S4096x1 .f32) (harg2 : arg2.IsWhole) (arg3 : Memref sig .tc .vmem S4096x64 .f32) (harg3 : arg3.IsWhole)
    (x0 : Vec F S4096x64 .f32) (x1 : Vec F S4096x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__norm_kernel i arg1 harg1 arg2 harg2 arg3 harg3) K := by
  simp only [cc1__norm_kernel_eq_skeleton]; unfold cc1__norm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body at a
    point each input's buffer at its block and the output's at the quotient of the two blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KRun.lean ====
/- The run of the whole program at any float instance: the buffers' contents at each boundary between a stretch
   of host operations and a region as a fold from the launch memory (a stretch applies its operations; a region
   leaves in its arrays what its write-backs fold to and every other buffer as entered), the two regions as
   segments over the thread state "every unscoped buffer at the boundary's contents, the generator register at
   some state, nothing owed", and the launch theorem over the five segments: every weakly fair execution ends,
   faults nowhere, and every unscoped buffer ends at the last boundary's contents. The argument arrays are
   written by nothing, so the fold at an argument walks back to the launch memory. -/
import proofs.«142184_j10161892622587_2_alg».proof.Proof.Gen.Kernel.Launch
import proofs.«142184_j10161892622587_2_alg».proof.Proof.Gen.Kernel.Skeleton
import proofs.«142184_j10161892622587_2_alg».proof.Proof.Gen.Kernel.Points
import proofs.«142184_j10161892622587_2_alg».proof.Proof.KBody0
import proofs.«142184_j10161892622587_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_c, main_v0, main_v1, main_c_0, main_v2, main_v3, main_v4, main_c_1, main_v5, main_v6, main_c_2, main_v7, main_v8, main_v9, main_c_3, main_v10, main_v11, main_c_4, main_v12, main_v13, main_v14, main_v15, main_v16, main_v17, main_v18, main_v19, main_v20, main_v21, main_v22, main_v23]
theorem hostOps0_writes : (hostOps0 : List (HloOp τ sig (Elt F))).Forall fun op => op.writes ⊆ (hostOps0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v25, main_v26, main_v27, main_v28, main_v29, main_v30, main_cst, main_v31, main_c_5, main_v32, main_v33, main_c_6, main_v34, main_v35, main_v36, main_c_7, main_v37, main_v38, main_c_8, main_v39, main_v40, main_v41, main_c_9, main_v42, main_v43, main_c_10, main_v44, main_v45, main_v46, main_v47, main_v48, main_v49, main_v50, main_v51, main_v52, main_v53, main_cst_11, main_v54, main_c_12, main_v55, main_v56, main_c_13, main_v57, main_v58, main_v59, main_c_14, main_v60, main_v61, main_c_15, main_v62, main_v63, main_v64, main_c_16, main_v65, main_v66, main_c_17, main_v67, main_v68, main_v69, main_v70, main_v71, main_v72, main_v73, main_v74, main_v75, main_cst_18, main_v76, main_v77, main_v78, main_v79]
theorem hostOps1_writes : (hostOps1 : List (HloOp τ sig (Elt F))).Forall fun op => op.writes ⊆ (hostOps1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v81]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The buffers' contents at each boundary -/

/-- Core `c`'s buffers at launch. -/
abbrev W0 : Dev nD → Valuation τ sig (Elt F) := fun c b => (s₀ m ρ).mem ((c : Dev nD), b)
/-- After the first stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: the contents the program ends with. -/
abbrev W5 : Dev nD → Valuation τ sig (Elt F) := fun c => StableHlo.after hostOps2 (W4 m ρ c)

/-! ## The arguments end as launched -/

/-- `main_arg0` reaches the end as launched: no host operation writes it and it is no array of either region. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` reaches the end as launched: no host operation writes it and it is no array of either region. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` reaches the end as launched: no host operation writes it and it is no array of either region. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the end as launched: no host operation writes it and it is no array of either region. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` reaches the end as launched: no host operation writes it and it is no array of either region. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of the segments. -/
theorem main_run (c : Dev nD) : main (F := F) c = Pipeline.Seg.run (segs m ρ) := (main_chain c).trans (by chain_rfl)

set_option backward.isDefEq.respectTransparency.types false in
/-- Every weakly fair execution of the program from memory `m` with zero counters terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.Kernel.Fr

end
-- ==== Proof.KIBody0.lean ====
/- The first region (the node-wise 8×8 by 8×64 products), at any float instance and at any contents `V` of the
   TensorCore's buffers when the region is entered: the block of each operand a grid point sees, what the body
   leaves in the output's staging buffer (one whole-block store of the product of the two input blocks), the
   body's triple, the proof data of the pipeline and its body obligation. -/
import proofs.«142184_j10161892622587_2_alg».proof.Proof.Gen.KernelIdeal.Launch
import proofs.«142184_j10161892622587_2_alg».proof.Proof.Gen.KernelIdeal.Skeleton
import proofs.«142184_j10161892622587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: 1024 consecutive nodes of the operand's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency operand's staging buffer holds its block at every point, whatever proof data has `V`'s arrays
    and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the gathered-features operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_0 : Rect S1024x8x8 := Rect.unit (s := S1024x8x8) ![0, 0, 0] S1024x8x8.size inb_S1024x8x8_S1024x8x8_0_0_0
abbrev r0_1 : Rect S1024x8x64 := Rect.unit (s := S1024x8x64) ![0, 0, 0] S1024x8x64.size inb_S1024x8x64_S1024x8x64_0_0_0

/-- The output's staging buffer after the body: its one store, of the product of the two input blocks. -/
def out0_2 (x0 : Vec F S1024x8x8 .f32) (x1 : Vec F S1024x8x64 .f32) : Vec F S1024x8x64 .f32 :=
  View.canon [⟨r0_1, k0_pay1 (View.ld x0 r0_0) (View.ld x1 r0_1)⟩]

/-- The one store covers the buffer. -/
theorem cover0_2 (p0 : Vec F S1024x8x64 .f32) (y : S1024x8x64.Idx) :
    ∃ pc ∈ ([⟨r0_1, p0⟩] : List (View.Piece (Elt F) S1024x8x64 .f32)), y ∈ pc.1.set :=
  View.cover_of_tiled [⟨r0_1, p0⟩] S1024x8x64.size (by rfl) y

set_option maxHeartbeats 1000000 in
/-- The body on whole staging buffers, the inputs' at read contents and the output's at anything, runs to the
    continuation with the inputs' as they were and the output's at `out0_2` of them. -/
theorem sound_kernel0 (c : Dev nD) (E : Set ℕ) (i : grid0.Coords) (arg1 : Memref sig .tc .vmem S1024x8x8 .f32) (harg1 : arg1.IsWhole) (arg2 : Memref sig .tc .vmem S1024x8x64 .f32) (harg2 : arg2.IsWhole) (arg3 : Memref sig .tc .vmem S1024x8x64 .f32) (harg3 : arg3.IsWhole)
    (x0 : Vec F S1024x8x8 .f32) (x1 : Vec F S1024x8x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at a
    point each input's buffer at its block and the output's at the product of the two blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIBody1.lean ====
/- The second region (every row of the aggregated array divided by the row's count), at any float instance and at
   any contents `V` of the TensorCore's buffers when the region is entered: the block of each operand a grid point
   sees, what the body leaves in the output's staging buffer (one whole-block store of the quotient), the body's
   triple, the proof data of the pipeline and its body obligation. -/
import proofs.«142184_j10161892622587_2_alg».proof.Proof.Gen.KernelIdeal.Launch
import proofs.«142184_j10161892622587_2_alg».proof.Proof.Gen.KernelIdeal.Skeleton
import proofs.«142184_j10161892622587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: 4096 consecutive rows of the operand's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated operand's staging buffer holds its block at every point, whatever proof data has `V`'s arrays
    and leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the column of counts. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev r1_0 : Rect S4096x64 := Rect.unit (s := S4096x64) ![0, 0] S4096x64.size inb_S4096x64_S4096x64_0_0
abbrev r1_1 : Rect S4096x1 := Rect.unit (s := S4096x1) ![0, 0] S4096x1.size inb_S4096x1_S4096x1_0_0

/-- The output's staging buffer after the body: its one store, of the rows divided by their counts. -/
def out1_2 (x0 : Vec F S4096x64 .f32) (x1 : Vec F S4096x1 .f32) : Vec F S4096x64 .f32 :=
  View.canon [⟨r1_0, k1_pay1 (View.ld x1 r1_1) (View.ld x0 r1_0)⟩]

/-- The one store covers the buffer. -/
theorem cover1_2 (p0 : Vec F S4096x64 .f32) (y : S4096x64.Idx) :
    ∃ pc ∈ ([⟨r1_0, p0⟩] : List (View.Piece (Elt F) S4096x64 .f32)), y ∈ pc.1.set :=
  View.cover_of_tiled [⟨r1_0, p0⟩] S4096x64.size (by rfl) y

set_option maxHeartbeats 1000000 in
/-- The body on whole staging buffers, the inputs' at read contents and the output's at anything, runs to the
    continuation with the inputs' as they were and the output's at `out1_2` of them. -/
theorem sound_kernel1 (c : Dev nD) (E : Set ℕ) (i : grid1.Coords) (arg1 : Memref sig .tc .vmem S4096x64 .f32) (harg1 : arg1.IsWhole) (arg2 : Memref sig .tc .vmem S4096x1 .f32) (harg2 : arg2.IsWhole) (arg3 : Memref sig .tc .vmem S4096x64 .f32) (harg3 : arg3.IsWhole)
    (x0 : Vec F S4096x64 .f32) (x1 : Vec F S4096x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__norm_kernel i arg1 harg1 arg2 harg2 arg3 harg3) K := by
  simp only [cc1__norm_kernel_eq_skeleton]; unfold cc1__norm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body at a
    point each input's buffer at its block and the output's at the quotient of the two blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIRun.lean ====
/- The run of the whole program at any float instance: the buffers' contents at each boundary between a stretch
   of host operations and a region as a fold from the launch memory (a stretch applies its operations; a region
   leaves in its arrays what its write-backs fold to and every other buffer as entered), the two regions as
   segments over the thread state "every unscoped buffer at the boundary's contents, the generator register at
   some state, nothing owed", and the launch theorem over the five segments: every weakly fair execution ends,
   faults nowhere, and every unscoped buffer ends at the last boundary's contents. The argument arrays are
   written by nothing, so the fold at an argument walks back to the launch memory. -/
import proofs.«142184_j10161892622587_2_alg».proof.Proof.Gen.KernelIdeal.Launch
import proofs.«142184_j10161892622587_2_alg».proof.Proof.Gen.KernelIdeal.Skeleton
import proofs.«142184_j10161892622587_2_alg».proof.Proof.Gen.KernelIdeal.Points
import proofs.«142184_j10161892622587_2_alg».proof.Proof.KIBody0
import proofs.«142184_j10161892622587_2_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_c, main_v0, main_v1, main_c_0, main_v2, main_v3, main_v4, main_c_1, main_v5, main_v6, main_c_2, main_v7, main_v8, main_v9, main_c_3, main_v10, main_v11, main_c_4, main_v12, main_v13, main_v14, main_v15, main_v16, main_v17, main_v18, main_v19, main_v20, main_v21, main_v22, main_v23]
theorem hostOps0_writes : (hostOps0 : List (HloOp τ sig (Elt F))).Forall fun op => op.writes ⊆ (hostOps0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v25, main_v26, main_v27, main_v28, main_v29, main_v30, main_cst, main_v31, main_c_5, main_v32, main_v33, main_c_6, main_v34, main_v35, main_v36, main_c_7, main_v37, main_v38, main_c_8, main_v39, main_v40, main_v41, main_c_9, main_v42, main_v43, main_c_10, main_v44, main_v45, main_v46, main_v47, main_v48, main_v49, main_v50, main_v51, main_v52, main_v53, main_cst_11, main_v54, main_c_12, main_v55, main_v56, main_c_13, main_v57, main_v58, main_v59, main_c_14, main_v60, main_v61, main_c_15, main_v62, main_v63, main_v64, main_c_16, main_v65, main_v66, main_c_17, main_v67, main_v68, main_v69, main_v70, main_v71, main_v72, main_v73, main_v74, main_v75, main_cst_18, main_v76, main_v77, main_v78, main_v79]
theorem hostOps1_writes : (hostOps1 : List (HloOp τ sig (Elt F))).Forall fun op => op.writes ⊆ (hostOps1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v81]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The buffers' contents at each boundary -/

/-- Core `c`'s buffers at launch. -/
abbrev W0 : Dev nD → Valuation τ sig (Elt F) := fun c b => (s₀ m ρ).mem ((c : Dev nD), b)
/-- After the first stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: the contents the program ends with. -/
abbrev W5 : Dev nD → Valuation τ sig (Elt F) := fun c => StableHlo.after hostOps2 (W4 m ρ c)

/-! ## The arguments end as launched -/

/-- `main_arg0` reaches the end as launched: no host operation writes it and it is no array of either region. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` reaches the end as launched: no host operation writes it and it is no array of either region. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` reaches the end as launched: no host operation writes it and it is no array of either region. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the end as launched: no host operation writes it and it is no array of either region. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` reaches the end as launched: no host operation writes it and it is no array of either region. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of the segments. -/
theorem main_run (c : Dev nD) : main (F := F) c = Pipeline.Seg.run (segs m ρ) := (main_chain c).trans (by chain_rfl)

set_option backward.isDefEq.respectTransparency.types false in
/-- Every weakly fair execution of the program from memory `m` with zero counters terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Fr

end
-- ==== Proof.KITerms.lean ====
/- The result of the program as one term of its five argument arrays, at any float instance: gather the neighbour
   features at the wrapped indices, multiply node by node with the adjacency blocks (stated as the batched product
   over the three leading axes), scatter-add the messages into zeros and ones into the small constant, and divide the
   aggregate by the counts broadcast along the feature axis. The index arrays are named on their own. -/
import proofs.«142184_j10161892622587_2_alg».proof.KernelIdeal
import proofs.«142184_j10161892622587_2_alg».proof.ReferenceIdeal
import proofs.«142184_j10161892622587_2_alg».proof.Proof.Gen.KernelIdeal
import proofs.«142184_j10161892622587_2_alg».proof.Proof.Gen.ReferenceIdeal
import Idealize.ShloMosaic.PureOps.Ideal

noncomputable section

namespace Cert.KernelIdeal.Fr

open Cert.KernelIdeal Cert.KernelIdeal.Gen
open Idealize.ShloMosaic

variable {F : FTy → Type} [FloatOps F]

/-- The gather's start indices: the three index arguments, each wrapped below zero by its extent, broadcast to the
    neighbour grid and joined along a last axis of three. -/
def idx0 (a2 : (⟨S4x1x1x1, .i32⟩ : BufTy).Contents (Elt F)) (a3 : (⟨S1x12x1x1, .i32⟩ : BufTy).Contents (Elt F))
    (a4 : (⟨S4x12x4096x8, .i32⟩ : BufTy).Contents (Elt F)) : (⟨S4x12x4096x8x3, .i32⟩ : BufTy).Contents (Elt F) :=
  concatenate S4x12x4096x8x3 4 [⟨S4x12x4096x8x1, (broadcastInDim S4x12x4096x8x1 ![0, 1, 2, 3] bcast_S4x12x4096x8_S4x12x4096x8x1_0_1_2_3 (broadcastInDim S4x12x4096x8 ![0, 1, 2, 3] bcast_S4x1x1x1_S4x12x4096x8_0_1_2_3 (select (cmpi .slt a2 (broadcastInDim S4x1x1x1 ![] bcast_S_S4x1x1x1 (constantI S_ 32 0#32))) (addi a2 (broadcastInDim S4x1x1x1 ![] bcast_S_S4x1x1x1 (constantI S_ 32 4#32))) a2)))⟩, ⟨S4x12x4096x8x1, (broadcastInDim S4x12x4096x8x1 ![0, 1, 2, 3] bcast_S4x12x4096x8_S4x12x4096x8x1_0_1_2_3 (broadcastInDim S4x12x4096x8 ![0, 1, 2, 3] bcast_S1x12x1x1_S4x12x4096x8_0_1_2_3 (select (cmpi .slt a3 (broadcastInDim S1x12x1x1 ![] bcast_S_S1x12x1x1 (constantI S_ 32 0#32))) (addi a3 (broadcastInDim S1x12x1x1 ![] bcast_S_S1x12x1x1 (constantI S_ 32 12#32))) a3)))⟩, ⟨S4x12x4096x8x1, (broadcastInDim S4x12x4096x8x1 ![0, 1, 2, 3] bcast_S4x12x4096x8_S4x12x4096x8x1_0_1_2_3 (select (cmpi .slt a4 (broadcastInDim S4x12x4096x8 ![] bcast_S_S4x12x4096x8 (constantI S_ 32 0#32))) (addi a4 (broadcastInDim S4x12x4096x8 ![] bcast_S_S4x12x4096x8 (constantI S_ 32 4096#32))) a4))⟩] concatenates_S4x12x4096x8x1_S4x12x4096x8x1_S4x12x4096x8x1_S4x12x4096x8x3_d4

/-- The scatter-adds' indices: batch and time counters and the flattened neighbour indices, each wrapped below zero
    by its extent, joined along a last axis of three. -/
def idx1 (a4 : (⟨S4x12x4096x8, .i32⟩ : BufTy).Contents (Elt F)) : (⟨S4x12x32768x3, .i32⟩ : BufTy).Contents (Elt F) :=
  concatenate S4x12x32768x3 3 [⟨S4x12x32768x1, (broadcastInDim S4x12x32768x1 ![0, 1, 2] bcast_S4x12x32768_S4x12x32768x1_0_1_2 (broadcastInDim S4x12x32768 ![0, 1, 2] bcast_S4x1x1_S4x12x32768_0_1_2 (select (cmpi .slt (shapeCast _ (iotaInDim S4 32 0) shapeCasts_S4_S4x1x1) (broadcastInDim S4x1x1 ![] bcast_S_S4x1x1 (constantI S_ 32 0#32))) (addi (shapeCast _ (iotaInDim S4 32 0) shapeCasts_S4_S4x1x1) (broadcastInDim S4x1x1 ![] bcast_S_S4x1x1 (constantI S_ 32 4#32))) (shapeCast _ (iotaInDim S4 32 0) shapeCasts_S4_S4x1x1))))⟩, ⟨S4x12x32768x1, (broadcastInDim S4x12x32768x1 ![0, 1, 2] bcast_S4x12x32768_S4x12x32768x1_0_1_2 (broadcastInDim S4x12x32768 ![0, 1, 2] bcast_S1x12x1_S4x12x32768_0_1_2 (select (cmpi .slt (shapeCast _ (iotaInDim S12 32 0) shapeCasts_S12_S1x12x1) (broadcastInDim S1x12x1 ![] bcast_S_S1x12x1 (constantI S_ 32 0#32))) (addi (shapeCast _ (iotaInDim S12 32 0) shapeCasts_S12_S1x12x1) (broadcastInDim S1x12x1 ![] bcast_S_S1x12x1 (constantI S_ 32 12#32))) (shapeCast _ (iotaInDim S12 32 0) shapeCasts_S12_S1x12x1))))⟩, ⟨S4x12x32768x1, (broadcastInDim S4x12x32768x1 ![0, 1, 2] bcast_S4x12x32768_S4x12x32768x1_0_1_2 (select (cmpi .slt (shapeCast _ a4 shapeCasts_S4x12x4096x8_S4x12x32768) (broadcastInDim S4x12x32768 ![] bcast_S_S4x12x32768 (constantI S_ 32 0#32))) (addi (shapeCast _ a4 shapeCasts_S4x12x4096x8_S4x12x32768) (broadcastInDim S4x12x32768 ![] bcast_S_S4x12x32768 (constantI S_ 32 4096#32))) (shapeCast _ a4 shapeCasts_S4x12x4096x8_S4x12x32768)))⟩] concatenates_S4x12x32768x1_S4x12x32768x1_S4x12x32768x1_S4x12x32768x3_d3

/-- The aggregate's start: zero everywhere. -/
def zeros : (⟨S4x12x4096x64, .f32⟩ : BufTy).Contents (Elt F) := broadcastInDim S4x12x4096x64 ![] bcast_S_S4x12x4096x64 (constant (F := F) S_ .f32 0x00000000#32)
/-- The counts' start: the small positive constant everywhere. -/
def eps : (⟨S4x12x4096, .f32⟩ : BufTy).Contents (Elt F) := broadcastInDim S4x12x4096 ![] bcast_S_S4x12x4096 (constant (F := F) S_ .f32 0x283424DC#32)
/-- One per message. -/
def ones : (⟨S4x12x32768, .f32⟩ : BufTy).Contents (Elt F) := broadcastInDim S4x12x32768 ![] bcast_S_S4x12x32768 (constant (F := F) S_ .f32 0x3F800000#32)

/-- The gathered neighbour features. -/
def gathered (a0 : (⟨S4x12x4096x64, .f32⟩ : BufTy).Contents (Elt F)) (a2 : (⟨S4x1x1x1, .i32⟩ : BufTy).Contents (Elt F))
    (a3 : (⟨S1x12x1x1, .i32⟩ : BufTy).Contents (Elt F)) (a4 : (⟨S4x12x4096x8, .i32⟩ : BufTy).Contents (Elt F)) :
    (⟨S4x12x4096x8x64, .f32⟩ : BufTy).Contents (Elt F) :=
  Host.gather gather_S4x12x4096x64_S4x12x4096x8x3_S4x12x4096x8x64_4_012_n_n_012_4_11164 a0 (idx0 a2 a3 a4)

/-- The aggregate of given messages (laid out with nodes and neighbours merged into one axis). -/
def aggOf (a4 : (⟨S4x12x4096x8, .i32⟩ : BufTy).Contents (Elt F)) (msgs : (⟨S4x12x32768x64, .f32⟩ : BufTy).Contents (Elt F)) :
    (⟨S4x12x4096x64, .f32⟩ : BufTy).Contents (Elt F) :=
  Host.scatterAdd scatter_S4x12x4096x64_S4x12x32768x3_S4x12x32768x64_3_012_012_3 zeros (idx1 a4) msgs

/-- How many messages each node receives, plus the small constant. -/
def counts (a4 : (⟨S4x12x4096x8, .i32⟩ : BufTy).Contents (Elt F)) : (⟨S4x12x4096, .f32⟩ : BufTy).Contents (Elt F) :=
  Host.scatterAdd scatter_S4x12x4096_S4x12x32768x3_S4x12x32768_n_012_012_3 eps (idx1 a4) ones

/-- The whole result, in the reference's arrangement: the batched product's messages aggregated, divided by the counts. -/
def resT (a0 : (⟨S4x12x4096x64, .f32⟩ : BufTy).Contents (Elt F)) (a1 : (⟨S4x12x4096x8x8, .f32⟩ : BufTy).Contents (Elt F))
    (a2 : (⟨S4x1x1x1, .i32⟩ : BufTy).Contents (Elt F)) (a3 : (⟨S1x12x1x1, .i32⟩ : BufTy).Contents (Elt F))
    (a4 : (⟨S4x12x4096x8, .i32⟩ : BufTy).Contents (Elt F)) : (⟨S4x12x4096x64, .f32⟩ : BufTy).Contents (Elt F) :=
  Host.divf (aggOf a4 (shapeCast _ (Host.dotGeneral Cert.ReferenceIdeal.dot_S4x12x4096x8x8_S4x12x4096x8x64_S4x12x4096x8x64_4_3_3_4_012_012 none a1 (gathered a0 a2 a3 a4)) Cert.ReferenceIdeal.Gen.shapeCasts_S4x12x4096x8x64_S4x12x32768x64))
    (broadcastInDim S4x12x4096x64 ![0, 1, 2, 3] Cert.ReferenceIdeal.Gen.bcast_S4x12x4096x1_S4x12x4096x64_0_1_2_3
      (broadcastInDim Cert.ReferenceIdeal.S4x12x4096x1 ![0, 1, 2] Cert.ReferenceIdeal.Gen.bcast_S4x12x4096_S4x12x4096x1_0_1_2 (counts a4)))

end Cert.KernelIdeal.Fr

end
-- ==== Proof.KIHost.lean ====
/- The host operations of the idealized kernel's program read back: what the buffers the two regions are entered
   with, and the program's result, hold as terms of the argument arrays and of the regions' own results. -/
import proofs.«142184_j10161892622587_2_alg».proof.Proof.Gen.KernelIdeal.Launch
import proofs.«142184_j10161892622587_2_alg».proof.Proof.Gen.KernelIdeal.Skeleton
import proofs.«142184_j10161892622587_2_alg».proof.Proof.Gen.KernelIdeal.Points
import proofs.«142184_j10161892622587_2_alg».proof.Proof.KIRun
import proofs.«142184_j10161892622587_2_alg».proof.Proof.KITerms
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- Three arrays of one shape joined along an axis. -/
def join3 {α : Type} (t : Shape) (a : Fin t.rank) (s : Shape) (h : Shape.Concatenates [s, s, s] t a)
    (x0 x1 x2 : s.Idx → α) : t.Idx → α :=
  concatenate t a [⟨s, x0⟩, ⟨s, x1⟩, ⟨s, x2⟩] h

/-- The joined index array `main_v20`, each of its three parts read at its own buffer. -/
theorem join_main_v20 (V : Valuation τ sig (Elt F)) :
    (StableHlo.nary ![main_v17, main_v18, main_v19] main_v20 (fun u => concatenate S4x12x4096x8x3 4 [⟨S4x12x4096x8x1, u 0⟩, ⟨S4x12x4096x8x1, u 1⟩, ⟨S4x12x4096x8x1, u 2⟩] concatenates_S4x12x4096x8x1_S4x12x4096x8x1_S4x12x4096x8x1_S4x12x4096x8x3_d4) : HloOp τ sig (Elt F)).result V (no_index (Proc.devRef .tc main_v20))
      = join3 S4x12x4096x8x3 4 S4x12x4096x8x1 concatenates_S4x12x4096x8x1_S4x12x4096x8x1_S4x12x4096x8x1_S4x12x4096x8x3_d4 (V (Proc.devRef .tc main_v17)) (V (Proc.devRef .tc main_v18)) (V (Proc.devRef .tc main_v19)) :=
  (StableHlo.nary_result _ _ _ _ _ V).trans rfl

/-- The joined index array `main_v52`, each of its three parts read at its own buffer. -/
theorem join_main_v52 (V : Valuation τ sig (Elt F)) :
    (StableHlo.nary ![main_v49, main_v50, main_v51] main_v52 (fun u => concatenate S4x12x32768x3 3 [⟨S4x12x32768x1, u 0⟩, ⟨S4x12x32768x1, u 1⟩, ⟨S4x12x32768x1, u 2⟩] concatenates_S4x12x32768x1_S4x12x32768x1_S4x12x32768x1_S4x12x32768x3_d3) : HloOp τ sig (Elt F)).result V (no_index (Proc.devRef .tc main_v52))
      = join3 S4x12x32768x3 3 S4x12x32768x1 concatenates_S4x12x32768x1_S4x12x32768x1_S4x12x32768x1_S4x12x32768x3_d3 (V (Proc.devRef .tc main_v49)) (V (Proc.devRef .tc main_v50)) (V (Proc.devRef .tc main_v51)) :=
  (StableHlo.nary_result _ _ _ _ _ V).trans rfl

/-- The joined index array `main_v75`, each of its three parts read at its own buffer. -/
theorem join_main_v75 (V : Valuation τ sig (Elt F)) :
    (StableHlo.nary ![main_v72, main_v73, main_v74] main_v75 (fun u => concatenate S4x12x32768x3 3 [⟨S4x12x32768x1, u 0⟩, ⟨S4x12x32768x1, u 1⟩, ⟨S4x12x32768x1, u 2⟩] concatenates_S4x12x32768x1_S4x12x32768x1_S4x12x32768x1_S4x12x32768x3_d3) : HloOp τ sig (Elt F)).result V (no_index (Proc.devRef .tc main_v75))
      = join3 S4x12x32768x3 3 S4x12x32768x1 concatenates_S4x12x32768x1_S4x12x32768x1_S4x12x32768x1_S4x12x32768x3_d3 (V (Proc.devRef .tc main_v72)) (V (Proc.devRef .tc main_v73)) (V (Proc.devRef .tc main_v74)) :=
  (StableHlo.nary_result _ _ _ _ _ V).trans rfl

/-- Reads a buffer back through a literal line of this program's host operations in one pass, a joined index
    array read at its three parts' own buffers. -/
macro "host_read" : tactic =>
  `(tactic| (simp (disch := decide) only [StableHlo.after_cons, StableHlo.after_nil,
      StableHlo.nullary_result', StableHlo.unary_result', StableHlo.binary_result',
      StableHlo.ternary_result', StableHlo.reshape_result',
      join_main_v20, join_main_v52, join_main_v75,
      StableHlo.nullary_result_ne', StableHlo.unary_result_ne', StableHlo.binary_result_ne',
      StableHlo.ternary_result_ne', StableHlo.reshape_result_ne', StableHlo.nary_result_ne']))

variable (m : (ℓ : Loc nD τ sig) → Buf (Elt F) ℓ) (ρ : Dev nD → PrngReg)

/-- The first region's adjacency operand: the adjacency argument, its three leading axes merged. -/
theorem W1_v22 (c : Dev nD) : W1 m ρ c (Proc.devRef .tc main_v22)
    = shapeCast _ (m ((c : Thread nD τ).loc main_arg1)) shapeCasts_S4x12x4096x8x8_S196608x8x8 := by
  show StableHlo.after hostOps0 (W0 m ρ c) (Proc.devRef .tc main_v22) = _
  after_results_simp <;> rfl

/-- The first region's feature operand: the gathered neighbour features, the three leading axes merged. -/
theorem W1_v23 (c : Dev nD) : W1 m ρ c (Proc.devRef .tc main_v23)
    = shapeCast _ (gathered (m ((c : Thread nD τ).loc main_arg0)) (m ((c : Thread nD τ).loc main_arg2)) (m ((c : Thread nD τ).loc main_arg3)) (m ((c : Thread nD τ).loc main_arg4))) shapeCasts_S4x12x4096x8x64_S196608x8x64 := by
  show StableHlo.after hostOps0 (W0 m ρ c) (Proc.devRef .tc main_v23) = _
  unfold gathered idx0
  host_read <;> rfl

/-- The index argument is as launched when the second stretch runs. -/
theorem W2_arg4 (c : Dev nD) : W2 m ρ c (Proc.devRef .tc main_arg4) = m ((c : Thread nD τ).loc main_arg4) :=
  (W2_of_ne m ρ c main_arg4 (by decide)).trans ((StableHlo.after_of_writes_sub hostOps0 _ hostOps0_writes (by decide)).trans rfl)

/-- The second region's aggregated operand: the messages (the first region's result, nodes and neighbours merged
    into one axis) scatter-added into zeros, then the three leading axes merged. -/
theorem W3_v78 (c : Dev nD) : W3 m ρ c (Proc.devRef .tc main_v78)
    = shapeCast _ (aggOf (m ((c : Thread nD τ).loc main_arg4))
        (shapeCast _ (W2 m ρ c (Proc.devRef .tc main_v24)) shapeCasts_S196608x8x64_S4x12x32768x64)) shapeCasts_S4x12x4096x64_S196608x64 := by
  show StableHlo.after hostOps1 (W2 m ρ c) (Proc.devRef .tc main_v78) = _
  unfold aggOf idx1 zeros
  rw [← W2_arg4 m ρ c]
  host_read <;> rfl

/-- The second region's count column: ones scatter-added into the small constant, as a column. -/
theorem W3_v79 (c : Dev nD) : W3 m ρ c (Proc.devRef .tc main_v79)
    = shapeCast _ (counts (m ((c : Thread nD τ).loc main_arg4))) shapeCasts_S4x12x4096_S196608x1 := by
  show StableHlo.after hostOps1 (W2 m ρ c) (Proc.devRef .tc main_v79) = _
  unfold counts idx1 eps ones
  rw [← W2_arg4 m ρ c]
  host_read <;> rfl

/-- The program's result: the second region's result, its rows split back into the three leading axes. -/
theorem W5_v81 (c : Dev nD) : W5 m ρ c (Proc.devRef .tc main_v81)
    = shapeCast _ (W4 m ρ c (Proc.devRef .tc main_v80)) shapeCasts_S196608x64_S4x12x4096x64 := by
  show StableHlo.after hostOps2 (W4 m ρ c) (Proc.devRef .tc main_v81) = _
  after_results_simp <;> rfl

end Cert.KernelIdeal.Fr

end
-- ==== Proof.MixValue.lean ====
/-
  The kernel's first region as values, at the ideal instance (floats are extended reals, the narrowing to bf16 is the
  identity, a product into the zero accumulator is a plain finite sum).

  The region multiplies, at every node m (196608 = 4·12·4096 nodes), an 8×8 matrix by an 8×64 matrix:
  out[m, k, d] = ∑ j, A[m, k, j] · B[m, j, d]. Here:
  * G0 is that node-wise product as one function of the two flattened arrays;
  * pay_apply reads one block's product (1024 nodes) at an index as the sum over the contracted coordinate;
  * mix_eq says that the node-wise products of the flattened [4,12,4096,8,8] and [4,12,4096,8,64] arrays, laid out again
    as [4,12,32768,64], are the batched product over the three leading axes (contracting the left array's axis 4 with the
    right array's axis 3) laid out as [4,12,32768,64]. Every reshape keeps the row-major position, node m is
    (b·12 + t)·4096 + n, and row r of the [4,12,32768,64] layout is n·8 + k; so both sides read, at (b, t, r, d),
    ∑ j, A[b, t, r / 8, r % 8, j] · B[b, t, r / 8, j, d].
-/
import proofs.«142184_j10161892622587_2_alg».proof.Proof.Gen.KernelIdeal.Skeleton
import proofs.«142184_j10161892622587_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.Mix

open Idealize.ShloMosaic Idealize.ShloMosaic.ValueIdx
open Cert.KernelIdeal Cert.KernelIdeal.Gen

/-! ## The node-wise product -/

/-- At node `m`, row `k`, column `d`: the sum over `j` of `A[m, k, j] · B[m, j, d]`. -/
def G0 (A : Vec Ideal S196608x8x8 .f32) (B : Vec Ideal S196608x8x64 .f32) : Vec Ideal S196608x8x64 .f32 :=
  fun i => ∑ j : Fin 8, A (ix3 (i 0 : Fin 196608) (i 1 : Fin 8) j) * B (ix3 (i 0 : Fin 196608) j (i 2 : Fin 64))

/-- The node-wise product at an index given by its coordinates. -/
theorem G0_apply (A : Vec Ideal S196608x8x8 .f32) (B : Vec Ideal S196608x8x64 .f32) (m : Fin 196608) (k : Fin 8) (d : Fin 64) :
    G0 A B (ix3 m k d) = ∑ j : Fin 8, A (ix3 m k j) * B (ix3 m j d) := rfl

/-! ## One block's product read at an index -/

theorem klhs_0 (i : S1024x8x64.Idx) (q : dot_S1024x8x8_S1024x8x64_S1024x8x64_2_1_1_2_0_0.contr.Idx) :
    (dot_S1024x8x8_S1024x8x64_S1024x8x64_2_1_1_2_0_0.lhsIdx i q 0).val = (i 0).val := by
  unfold DotDims.lhsIdx
  rw [dif_pos (show (0 : Fin S1024x8x8.rank) ∈ dot_S1024x8x8_S1024x8x64_S1024x8x64_2_1_1_2_0_0.lhsBatch by decide)]
  rfl
theorem klhs_1 (i : S1024x8x64.Idx) (q : dot_S1024x8x8_S1024x8x64_S1024x8x64_2_1_1_2_0_0.contr.Idx) :
    (dot_S1024x8x8_S1024x8x64_S1024x8x64_2_1_1_2_0_0.lhsIdx i q 1).val = (i 1).val := by
  unfold DotDims.lhsIdx
  rw [dif_neg (show ¬(1 : Fin S1024x8x8.rank) ∈ dot_S1024x8x8_S1024x8x64_S1024x8x64_2_1_1_2_0_0.lhsBatch by decide), dif_pos (show (1 : Fin S1024x8x8.rank) ∈ dot_S1024x8x8_S1024x8x64_S1024x8x64_2_1_1_2_0_0.lhsNonContracting by decide)]
  rfl
theorem klhs_2 (i : S1024x8x64.Idx) (q : dot_S1024x8x8_S1024x8x64_S1024x8x64_2_1_1_2_0_0.contr.Idx) :
    (dot_S1024x8x8_S1024x8x64_S1024x8x64_2_1_1_2_0_0.lhsIdx i q 2).val = (q ⟨0, by decide⟩).val :=
  dot_S1024x8x8_S1024x8x64_S1024x8x64_2_1_1_2_0_0.lhsIdx_val_of_single rfl i q
theorem krhs_0 (i : S1024x8x64.Idx) (q : dot_S1024x8x8_S1024x8x64_S1024x8x64_2_1_1_2_0_0.contr.Idx) :
    (dot_S1024x8x8_S1024x8x64_S1024x8x64_2_1_1_2_0_0.rhsIdx i q 0).val = (i 0).val := by
  unfold DotDims.rhsIdx
  rw [dif_pos (show (0 : Fin S1024x8x64.rank) ∈ dot_S1024x8x8_S1024x8x64_S1024x8x64_2_1_1_2_0_0.rhsBatch by decide)]
  rfl
theorem krhs_1 (i : S1024x8x64.Idx) (q : dot_S1024x8x8_S1024x8x64_S1024x8x64_2_1_1_2_0_0.contr.Idx) :
    (dot_S1024x8x8_S1024x8x64_S1024x8x64_2_1_1_2_0_0.rhsIdx i q 1).val = (q ⟨0, by decide⟩).val :=
  dot_S1024x8x8_S1024x8x64_S1024x8x64_2_1_1_2_0_0.rhsIdx_val_of_single rfl i q
theorem krhs_2 (i : S1024x8x64.Idx) (q : dot_S1024x8x8_S1024x8x64_S1024x8x64_2_1_1_2_0_0.contr.Idx) :
    (dot_S1024x8x8_S1024x8x64_S1024x8x64_2_1_1_2_0_0.rhsIdx i q 2).val = (i 2).val := by
  unfold DotDims.rhsIdx
  rw [dif_neg (show ¬(2 : Fin S1024x8x64.rank) ∈ dot_S1024x8x8_S1024x8x64_S1024x8x64_2_1_1_2_0_0.rhsBatch by decide), dif_pos (show (2 : Fin S1024x8x64.rank) ∈ dot_S1024x8x8_S1024x8x64_S1024x8x64_2_1_1_2_0_0.rhsNonContracting by decide)]
  rfl

/-- A block's product at node `p`, row `k`, column `d` is the sum over the contracted coordinate `j`. -/
theorem pay_apply (x0 : Vec Ideal S1024x8x8 .f32) (x1 : Vec Ideal S1024x8x64 .f32) (p : Fin 1024) (k : Fin 8) (d : Fin 64) :
    k0_pay1 (F := Ideal) x0 x1 (ix3 p k d) = ∑ j : Fin 8, x0 (ix3 p k j) * x1 (ix3 p j d) := by
  unfold k0_pay1
  refine (Ideal.matmul_constant_zero_apply dot_S1024x8x8_S1024x8x64_S1024x8x64_2_1_1_2_0_0 none _ _ (ix3 p k d)).trans ?_
  rw [← Equiv.sum_comp (contrEquiv1 dot_S1024x8x8_S1024x8x64_S1024x8x64_2_1_1_2_0_0 8 rfl rfl).symm]
  refine Finset.sum_congr rfl fun j _ => ?_
  have hj := contrEquiv1_symm_val dot_S1024x8x8_S1024x8x64_S1024x8x64_2_1_1_2_0_0 8 rfl rfl j
  have el : dot_S1024x8x8_S1024x8x64_S1024x8x64_2_1_1_2_0_0.lhsIdx (ix3 p k d) ((contrEquiv1 dot_S1024x8x8_S1024x8x64_S1024x8x64_2_1_1_2_0_0 8 rfl rfl).symm j) = ix3 p k j := funext fun a => Fin.ext (by
    match a with
    | ⟨0, _⟩ => exact klhs_0 _ _
    | ⟨1, _⟩ => exact klhs_1 _ _
    | ⟨2, _⟩ => exact (klhs_2 _ _).trans hj)
  have er : dot_S1024x8x8_S1024x8x64_S1024x8x64_2_1_1_2_0_0.rhsIdx (ix3 p k d) ((contrEquiv1 dot_S1024x8x8_S1024x8x64_S1024x8x64_2_1_1_2_0_0 8 rfl rfl).symm j) = ix3 p j d := funext fun a => Fin.ext (by
    match a with
    | ⟨0, _⟩ => exact krhs_0 _ _
    | ⟨1, _⟩ => exact (krhs_1 _ _).trans hj
    | ⟨2, _⟩ => exact krhs_2 _ _)
  rw [el, er, truncf_apply, truncf_apply, shapeCast_self, shapeCast_self]

/-! ## The batched product read at an index -/

/-- The batched product of the [4,12,4096,8,8] and [4,12,4096,8,64] arrays (batch axes 0, 1, 2; the left array's axis 4
    contracted with the right array's axis 3) at `(b, t, n, k, d)` is the sum over the contracted coordinate `j`. -/
theorem refDot_apply (A5 : Vec Ideal S4x12x4096x8x8 .f32) (B5 : Vec Ideal S4x12x4096x8x64 .f32)
    (b : Fin 4) (t : Fin 12) (n : Fin 4096) (k : Fin 8) (d : Fin 64) :
    Host.dotGeneral (F := Ideal) (φ₁ := .f32) (φ₂ := .f32) Cert.ReferenceIdeal.dot_S4x12x4096x8x8_S4x12x4096x8x64_S4x12x4096x8x64_4_3_3_4_012_012 none A5 B5 (ix5 b t n k d)
      = ∑ j : Fin 8, A5 (ix5 b t n k j) * B5 (ix5 b t n j d) := by
  show FloatOps.dotGeneral (F := Ideal) (φ₁ := .f32) (φ₂ := .f32) Cert.ReferenceIdeal.dot_S4x12x4096x8x8_S4x12x4096x8x64_S4x12x4096x8x64_4_3_3_4_012_012 none .single A5 B5 (ix5 b t n k d) = _
  rw [Ideal.dotGeneral_apply, ← Equiv.sum_comp (contrEquiv1 Cert.ReferenceIdeal.dot_S4x12x4096x8x8_S4x12x4096x8x64_S4x12x4096x8x64_4_3_3_4_012_012 8 rfl rfl).symm]
  refine Finset.sum_congr rfl fun j _ => ?_
  have hj := contrEquiv1_symm_val Cert.ReferenceIdeal.dot_S4x12x4096x8x8_S4x12x4096x8x64_S4x12x4096x8x64_4_3_3_4_012_012 8 rfl rfl j
  have el : Cert.ReferenceIdeal.dot_S4x12x4096x8x8_S4x12x4096x8x64_S4x12x4096x8x64_4_3_3_4_012_012.lhsIdx (ix5 b t n k d) ((contrEquiv1 Cert.ReferenceIdeal.dot_S4x12x4096x8x8_S4x12x4096x8x64_S4x12x4096x8x64_4_3_3_4_012_012 8 rfl rfl).symm j) = ix5 b t n k j := funext fun a => Fin.ext (by
    match a with
    | ⟨0, _⟩ => exact Cert.ReferenceIdeal.Read.lhs_main_v22_0 _ _
    | ⟨1, _⟩ => exact Cert.ReferenceIdeal.Read.lhs_main_v22_1 _ _
    | ⟨2, _⟩ => exact Cert.ReferenceIdeal.Read.lhs_main_v22_2 _ _
    | ⟨3, _⟩ => exact Cert.ReferenceIdeal.Read.lhs_main_v22_3 _ _
    | ⟨4, _⟩ => exact (Cert.ReferenceIdeal.Read.lhs_main_v22_4 _ _).trans hj)
  have er : Cert.ReferenceIdeal.dot_S4x12x4096x8x8_S4x12x4096x8x64_S4x12x4096x8x64_4_3_3_4_012_012.rhsIdx (ix5 b t n k d) ((contrEquiv1 Cert.ReferenceIdeal.dot_S4x12x4096x8x8_S4x12x4096x8x64_S4x12x4096x8x64_4_3_3_4_012_012 8 rfl rfl).symm j) = ix5 b t n j d := funext fun a => Fin.ext (by
    match a with
    | ⟨0, _⟩ => exact Cert.ReferenceIdeal.Read.rhs_main_v22_0 _ _
    | ⟨1, _⟩ => exact Cert.ReferenceIdeal.Read.rhs_main_v22_1 _ _
    | ⟨2, _⟩ => exact Cert.ReferenceIdeal.Read.rhs_main_v22_2 _ _
    | ⟨3, _⟩ => exact (Cert.ReferenceIdeal.Read.rhs_main_v22_3 _ _).trans hj
    | ⟨4, _⟩ => exact Cert.ReferenceIdeal.Read.rhs_main_v22_4 _ _)
  rw [el, er]

/-! ## The flattened arrays read at a node -/

/-- The node of batch `b`, head `t`, position `n`: its row-major number among the 4·12·4096 nodes. -/
def node (b : Fin 4) (t : Fin 12) (n : Fin 4096) : Fin 196608 :=
  ⟨(b.val * 12 + t.val) * 4096 + n.val, by have := b.isLt; have := t.isLt; have := n.isLt; omega⟩

theorem node_val (b : Fin 4) (t : Fin 12) (n : Fin 4096) : (node b t n).val = (b.val * 12 + t.val) * 4096 + n.val := rfl

/-- The [4,12,4096,8,8] array flattened to [196608,8,8], read at a node. -/
theorem castA_apply (A5 : Vec Ideal S4x12x4096x8x8 .f32) (h : S4x12x4096x8x8.ShapeCasts S196608x8x8)
    (b : Fin 4) (t : Fin 12) (n : Fin 4096) (k : Fin 8) (j : Fin 8) :
    shapeCast S196608x8x8 A5 h (ix3 (node b t n) k j) = A5 (ix5 b t n k j) :=
  shapeCast_apply A5 h (ix3 (node b t n) k j) (ix5 b t n k j) (by
    rw [Shape.rowMajor_val_five, Shape.rowMajor_val_three]
    show (((b.val * 12 + t.val) * 4096 + n.val) * 8 + k.val) * 8 + j.val
      = (((b.val * 12 + t.val) * 4096 + n.val) * 8 + k.val) * 8 + j.val
    rfl)

/-- The [4,12,4096,8,64] array flattened to [196608,8,64], read at a node. -/
theorem castB_apply (B5 : Vec Ideal S4x12x4096x8x64 .f32) (h : S4x12x4096x8x64.ShapeCasts S196608x8x64)
    (b : Fin 4) (t : Fin 12) (n : Fin 4096) (j : Fin 8) (d : Fin 64) :
    shapeCast S196608x8x64 B5 h (ix3 (node b t n) j d) = B5 (ix5 b t n j d) :=
  shapeCast_apply B5 h (ix3 (node b t n) j d) (ix5 b t n j d) (by
    rw [Shape.rowMajor_val_five, Shape.rowMajor_val_three]
    show (((b.val * 12 + t.val) * 4096 + n.val) * 8 + j.val) * 64 + d.val
      = (((b.val * 12 + t.val) * 4096 + n.val) * 8 + j.val) * 64 + d.val
    rfl)

/-- The node-wise product of the two flattened arrays at node `(b, t, n)`, row `k`, column `d`. -/
theorem G0_cast_apply (A5 : Vec Ideal S4x12x4096x8x8 .f32) (B5 : Vec Ideal S4x12x4096x8x64 .f32)
    (hA : S4x12x4096x8x8.ShapeCasts S196608x8x8) (hB : S4x12x4096x8x64.ShapeCasts S196608x8x64)
    (b : Fin 4) (t : Fin 12) (n : Fin 4096) (k : Fin 8) (d : Fin 64) :
    G0 (shapeCast S196608x8x8 A5 hA) (shapeCast S196608x8x64 B5 hB) (ix3 (node b t n) k d)
      = ∑ j : Fin 8, A5 (ix5 b t n k j) * B5 (ix5 b t n j d) := by
  rw [G0_apply]
  refine Finset.sum_congr rfl fun j _ => ?_
  rw [castA_apply, castB_apply]

/-! ## The two layouts agree -/

/-- At every index of the [4,12,32768,64] layout the re-laid node-wise products and the re-laid batched product agree. -/
theorem mix_apply (A5 : Vec Ideal S4x12x4096x8x8 .f32) (B5 : Vec Ideal S4x12x4096x8x64 .f32)
    (hA : S4x12x4096x8x8.ShapeCasts S196608x8x8) (hB : S4x12x4096x8x64.ShapeCasts S196608x8x64)
    (hO : S196608x8x64.ShapeCasts S4x12x32768x64) (hR : S4x12x4096x8x64.ShapeCasts S4x12x32768x64)
    (i : S4x12x32768x64.Idx) :
    shapeCast S4x12x32768x64 (G0 (shapeCast S196608x8x8 A5 hA) (shapeCast S196608x8x64 B5 hB)) hO i
      = shapeCast S4x12x32768x64 (Host.dotGeneral (F := Ideal) (φ₁ := .f32) (φ₂ := .f32) Cert.ReferenceIdeal.dot_S4x12x4096x8x8_S4x12x4096x8x64_S4x12x4096x8x64_4_3_3_4_012_012 none A5 B5) hR i := by
  obtain ⟨b, t, r, d, rfl⟩ : ∃ (b : Fin 4) (t : Fin 12) (r : Fin 32768) (d : Fin 64), i = ix4 b t r d :=
    ⟨i 0, i 1, i 2, i 3, eq_ix4 i⟩
  have hb := b.isLt; have ht := t.isLt; have hr := r.isLt; have hd := d.isLt
  obtain ⟨n, hn⟩ : ∃ n : Fin 4096, n.val = r.val / 8 := ⟨⟨r.val / 8, by omega⟩, rfl⟩
  obtain ⟨k, hk⟩ : ∃ k : Fin 8, k.val = r.val % 8 := ⟨⟨r.val % 8, by omega⟩, rfl⟩
  have eL := shapeCast_apply (G0 (shapeCast S196608x8x8 A5 hA) (shapeCast S196608x8x64 B5 hB)) hO (ix4 b t r d)
    (ix3 (node b t n) k d) (by
      rw [Shape.rowMajor_val_three, Shape.rowMajor_val_four]
      show (((b.val * 12 + t.val) * 4096 + n.val) * 8 + k.val) * 64 + d.val
        = ((b.val * 12 + t.val) * 32768 + r.val) * 64 + d.val
      omega)
  have eR := shapeCast_apply (Host.dotGeneral (F := Ideal) (φ₁ := .f32) (φ₂ := .f32) Cert.ReferenceIdeal.dot_S4x12x4096x8x8_S4x12x4096x8x64_S4x12x4096x8x64_4_3_3_4_012_012 none A5 B5) hR (ix4 b t r d)
    (ix5 b t n k d) (by
      rw [Shape.rowMajor_val_five, Shape.rowMajor_val_four]
      show (((b.val * 12 + t.val) * 4096 + n.val) * 8 + k.val) * 64 + d.val
        = ((b.val * 12 + t.val) * 32768 + r.val) * 64 + d.val
      omega)
  rw [eL, eR, G0_cast_apply, refDot_apply]

/-- The node-wise products of the flattened arrays, laid out as [4,12,32768,64], are the batched product laid out as
    [4,12,32768,64]; for any proofs of the four reshapes' size conditions. -/
theorem mix_eq' (A5 : Vec Ideal S4x12x4096x8x8 .f32) (B5 : Vec Ideal S4x12x4096x8x64 .f32)
    (hA : S4x12x4096x8x8.ShapeCasts S196608x8x8) (hB : S4x12x4096x8x64.ShapeCasts S196608x8x64)
    (hO : S196608x8x64.ShapeCasts S4x12x32768x64) (hR : S4x12x4096x8x64.ShapeCasts S4x12x32768x64) :
    shapeCast S4x12x32768x64 (G0 (shapeCast S196608x8x8 A5 hA) (shapeCast S196608x8x64 B5 hB)) hO
      = shapeCast S4x12x32768x64 (Host.dotGeneral (F := Ideal) (φ₁ := .f32) (φ₂ := .f32) Cert.ReferenceIdeal.dot_S4x12x4096x8x8_S4x12x4096x8x64_S4x12x4096x8x64_4_3_3_4_012_012 none A5 B5) hR :=
  funext fun i => mix_apply A5 B5 hA hB hO hR i

/-- The same at the size conditions the two printed programs cite. -/
theorem mix_eq (A5 : Vec Ideal S4x12x4096x8x8 .f32) (B5 : Vec Ideal S4x12x4096x8x64 .f32) :
    shapeCast S4x12x32768x64 (G0 (shapeCast S196608x8x8 A5 Cert.KernelIdeal.Facts₀.shapeCasts_S4x12x4096x8x8_S196608x8x8)
        (shapeCast S196608x8x64 B5 Cert.KernelIdeal.Facts₀.shapeCasts_S4x12x4096x8x64_S196608x8x64))
        Cert.KernelIdeal.Facts₀.shapeCasts_S196608x8x64_S4x12x32768x64
      = shapeCast S4x12x32768x64 (Host.dotGeneral (F := Ideal) (φ₁ := .f32) (φ₂ := .f32) Cert.ReferenceIdeal.dot_S4x12x4096x8x8_S4x12x4096x8x64_S4x12x4096x8x64_4_3_3_4_012_012 none A5 B5)
        Cert.ReferenceIdeal.Facts₀.shapeCasts_S4x12x4096x8x64_S4x12x32768x64 :=
  mix_eq' A5 B5 _ _ _ _

end Cert.Mix

end
-- ==== Proof.KIVal0.lean ====
/- The first region's result as one array, at the ideal instance: every grid point writes back the node-wise
   products of its 1024 nodes, the blocks tile the [196608, 8, 64] array, so the array ends holding the node-wise
   product of the two operand arrays as the region finds them. -/
import proofs.«142184_j10161892622587_2_alg».proof.Proof.KIBody0
import proofs.«142184_j10161892622587_2_alg».proof.Proof.MixValue
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: point `t` sees block `t` along the node axis of every operand, and the
    whole of the two short axes. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The grid has 192 points. -/
theorem pt_lt (t : Fin cfg0.N) : t.val < 192 := lt_of_lt_of_eq t.isLt N_0

/-- Node `p` of block `t`: blocks are runs of 1024 consecutive nodes. -/
def blockNode (t : Fin cfg0.N) (p : Fin 1024) : Fin 196608 :=
  ⟨t.val * 1024 + p.val, by have := pt_lt t; have := p.isLt; omega⟩

theorem blockNode_val (t : Fin cfg0.N) (p : Fin 1024) : (blockNode t p).val = t.val * 1024 + p.val := rfl

/-! ## Where a block's element sits in its array -/

set_option backward.isDefEq.respectTransparency.types false in
/-- Element `(p, k, j)` of the left operand's block `t` is element `(t·1024 + p, k, j)` of the array. -/
theorem emb0 (t : Fin cfg0.N) (p : Fin 1024) (k j : Fin 8) :
    ((cfg0.win 0).blk t).view.emb (ix3 p k j) = ix3 (blockNode t p) k j := by
  obtain ⟨e0, e1, e2, -⟩ := idx_facts0 t
  funext a; apply Fin.ext
  match a with
  | ⟨0, _⟩ => show win0_0.index t (0 : Fin 3) * 1024 + 1 * p.val = t.val * 1024 + p.val; omega
  | ⟨1, _⟩ => show win0_0.index t (1 : Fin 3) * 8 + 1 * k.val = k.val; omega
  | ⟨2, _⟩ => show win0_0.index t (2 : Fin 3) * 8 + 1 * j.val = j.val; omega

set_option backward.isDefEq.respectTransparency.types false in
/-- Element `(p, j, d)` of the right operand's block `t` is element `(t·1024 + p, j, d)` of the array. -/
theorem emb1 (t : Fin cfg0.N) (p : Fin 1024) (j : Fin 8) (d : Fin 64) :
    ((cfg0.win 1).blk t).view.emb (ix3 p j d) = ix3 (blockNode t p) j d := by
  obtain ⟨-, -, -, e0, e1, e2, -⟩ := idx_facts0 t
  funext a; apply Fin.ext
  match a with
  | ⟨0, _⟩ => show win0_1.index t (0 : Fin 3) * 1024 + 1 * p.val = t.val * 1024 + p.val; omega
  | ⟨1, _⟩ => show win0_1.index t (1 : Fin 3) * 8 + 1 * j.val = j.val; omega
  | ⟨2, _⟩ => show win0_1.index t (2 : Fin 3) * 64 + 1 * d.val = d.val; omega

set_option backward.isDefEq.respectTransparency.types false in
/-- Element `(p, k, d)` of the result's block `t` is element `(t·1024 + p, k, d)` of the array. -/
theorem emb2 (t : Fin cfg0.N) (p : Fin 1024) (k : Fin 8) (d : Fin 64) :
    ((cfg0.win 2).blk t).view.emb (ix3 p k d) = ix3 (blockNode t p) k d := by
  obtain ⟨-, -, -, -, -, -, e0, e1, e2⟩ := idx_facts0 t
  funext a; apply Fin.ext
  match a with
  | ⟨0, _⟩ => show win0_2.index t (0 : Fin 3) * 1024 + 1 * p.val = t.val * 1024 + p.val; omega
  | ⟨1, _⟩ => show win0_2.index t (1 : Fin 3) * 8 + 1 * k.val = k.val; omega
  | ⟨2, _⟩ => show win0_2.index t (2 : Fin 3) * 64 + 1 * d.val = d.val; omega

/-! ## What one point writes back -/

/-- The product of two blocks that are blocks `t` of arrays `A` and `B` is, element by element, the node-wise
    product of `A` and `B` at the block's nodes. -/
theorem point_eq (A : Vec Ideal S196608x8x8 .f32) (B : Vec Ideal S196608x8x64 .f32)
    (x0 : Vec Ideal S1024x8x8 .f32) (x1 : Vec Ideal S1024x8x64 .f32) (t : Fin cfg0.N)
    (h0 : ∀ (p : Fin 1024) (k j : Fin 8), x0 (ix3 p k j) = A (ix3 (blockNode t p) k j))
    (h1 : ∀ (p : Fin 1024) (j : Fin 8) (d : Fin 64), x1 (ix3 p j d) = B (ix3 (blockNode t p) j d))
    (p : Fin 1024) (k : Fin 8) (d : Fin 64) :
    k0_pay1 (F := Ideal) x0 x1 (ix3 p k d) = Cert.Mix.G0 A B (ix3 (blockNode t p) k d) := by
  rw [Cert.Mix.pay_apply, Cert.Mix.G0_apply]
  exact Finset.sum_congr rfl fun j _ => by rw [h0, h1]

set_option backward.isDefEq.respectTransparency.types false in
/-- The left operand's block at point `t`, element by element. -/
theorem iblk0_0_apply (c : Dev nD) (t : Fin cfg0.N) (p : Fin 1024) (k j : Fin 8) :
    iblk0 V c 0 t (ix3 p k j) = V c main_v22 (ix3 (blockNode t p) k j) := by
  show V c main_v22 (((cfg0.win 0).blk t).view.emb (ix3 p k j)) = _
  rw [emb0]

set_option backward.isDefEq.respectTransparency.types false in
/-- The right operand's block at point `t`, element by element. -/
theorem iblk0_1_apply (c : Dev nD) (t : Fin cfg0.N) (p : Fin 1024) (j : Fin 8) (d : Fin 64) :
    iblk0 V c 1 t (ix3 p j d) = V c main_v23 (ix3 (blockNode t p) j d) := by
  show V c main_v23 (((cfg0.win 1).blk t).view.emb (ix3 p j d)) = _
  rw [emb1]

set_option backward.isDefEq.respectTransparency.types false in
/-- What point `t` writes back is block `t` of the node-wise product of the two operand arrays as the region
    finds them. -/
theorem flushed0_eq (c : Dev nD) (t : Fin cfg0.N) :
    (dat0 V c).flushed 2 t = ((cfg0.win 2).blk t).view.read (Elt Ideal) (Cert.Mix.G0 (V c main_v22) (V c main_v23)) := by
  show (cfg0.win 2).cut (grid0.coords t) ((dat0 V c).after 2 t) = _
  rw [after0_2]
  unfold out0_2
  rw [View.canon_unit_zero hz3]
  simp only [View.ld_unit_zero (S := S1024x8x8) hz3, View.ld_unit_zero (S := S1024x8x64) hz3]
  funext y
  obtain ⟨p, k, d, rfl⟩ : ∃ (p : Fin 1024) (k : Fin 8) (d : Fin 64), y = ix3 p k d := ⟨y 0, y 1, y 2, eq_ix3 y⟩
  show k0_pay1 (F := Ideal) (iblk0 V c 0 t) (iblk0 V c 1 t) (ix3 p k d)
    = Cert.Mix.G0 (V c main_v22) (V c main_v23) (((cfg0.win 2).blk t).view.emb (ix3 p k d))
  rw [emb2]
  exact point_eq (V c main_v22) (V c main_v23) (iblk0 V c 0 t) (iblk0 V c 1 t) t
    (iblk0_0_apply V c t) (iblk0_1_apply V c t) p k d

/-! ## The blocks tile the array -/

/-- An index of the array is in point `t`'s block iff each coordinate is in the block's range on its axis. -/
theorem mem_blk0 (t : Fin cfg0.N) (i : S196608x8x64.Idx) :
    i ∈ ((cfg0.win 2).blk t).view.set ↔ ∀ a : Fin 3, win0_2.index t a * S1024x8x64.size a ≤ (i a).val ∧ (i a).val < win0_2.index t a * S1024x8x64.size a + S1024x8x64.size a := by
  show i ∈ ((View.whole main_v24).slice (win0_2.rect t)).set ↔ _
  rw [View.set_slice_whole, Rect.mem_set_unit]
  exact Iff.rfl

/-- Every index of the array lies in the block of the point numbered by its node divided by 1024. -/
theorem cover0 (i : S196608x8x64.Idx) :
    ∃ t : Fin cfg0.N, (cfg0.win 2).flush t = true ∧ i ∈ ((cfg0.win 2).blk t).view.set := by
  have hi0 : (i 0).val < 196608 := (i 0).isLt
  have hi1 : (i 1).val < 8 := (i 1).isLt
  have hi2 : (i 2).val < 64 := (i 2).isLt
  obtain ⟨t, ht⟩ : ∃ t : Fin cfg0.N, t.val = (i 0).val / 1024 :=
    ⟨⟨(i 0).val / 1024, lt_of_lt_of_eq (by omega : (i 0).val / 1024 < 192) N_0.symm⟩, rfl⟩
  obtain ⟨-, -, -, -, -, -, e0, e1, e2⟩ := idx_facts0 t
  refine ⟨t, flush0_2 t, ?_⟩
  rw [mem_blk0]
  intro a
  match a with
  | ⟨0, _⟩ => show win0_2.index t (0 : Fin 3) * 1024 ≤ (i 0).val ∧ (i 0).val < win0_2.index t (0 : Fin 3) * 1024 + 1024; omega
  | ⟨1, _⟩ => show win0_2.index t (1 : Fin 3) * 8 ≤ (i 1).val ∧ (i 1).val < win0_2.index t (1 : Fin 3) * 8 + 8; omega
  | ⟨2, _⟩ => show win0_2.index t (2 : Fin 3) * 64 ≤ (i 2).val ∧ (i 2).val < win0_2.index t (2 : Fin 3) * 64 + 64; omega

/-! ## The array after the region -/

/-- After the last point the result array is the node-wise product of the two operand arrays as the region finds them. -/
theorem final0 (c : Dev nD) :
    (dat0 V c).arrAt 2 cfg0.N = Cert.Mix.G0 (V c main_v22) (V c main_v23) :=
  (dat0 V c).arrAt_eq_of_cover 2 (Cert.Mix.G0 (V c main_v22) (V c main_v23)) (fun t _ => flushed0_eq V c t) cover0

end Cert.KernelIdeal.Fr

end
-- ==== Proof.NormValue.lean ====
/-
  The second region of the kernel, as pure value lemmas at the ideal instance.

  Rows: the kernel views the [4, 12, 4096, 64] array as 196608 = 4 · 12 · 4096 rows of 64 entries (row
  r = (b · 12 + t) · 4096 + n), and the [4, 12, 4096] counts as a column of 196608 entries; every row is divided by its
  count. The reference divides the four-axis array by the counts broadcast along the last axis. All reshapes keep the
  row-major position, so the two agree entry by entry.
-/
import proofs.«142184_j10161892622587_2_alg».proof.Proof.Gen.KernelIdeal.Skeleton
import proofs.«142184_j10161892622587_2_alg».proof.Proof.Gen.ReferenceIdeal
import Idealize.ShloMosaic.Lib.Pipeline.Value
import Idealize.ShloMosaic.Lib.ValueIdx
import Idealize.ShloMosaic.Lib.IdealHost

noncomputable section

namespace Cert.Norm

open Idealize.ShloMosaic Idealize.ShloMosaic.ValueIdx
-- the shapes are the kernel program's; the reference prints equal definitions of those it shares
open Cert.KernelIdeal (S4x12x4096x64 S4x12x4096 S196608x64 S196608x1 S4096x64 S4096x1)
open Cert.ReferenceIdeal (S4x12x4096x1)

/-- The row of the flattened array that holds the entries `(b, t, n, ·)`. -/
def row (b : Fin 4) (t : Fin 12) (n : Fin 4096) : Fin 196608 :=
  ⟨(b.val * 12 + t.val) * 4096 + n.val, by have := b.isLt; have := t.isLt; have := n.isLt; omega⟩

theorem row_val (b : Fin 4) (t : Fin 12) (n : Fin 4096) : (row b t n).val = (b.val * 12 + t.val) * 4096 + n.val := rfl

/-! ## The specification of the region: every row divided by its count -/

/-- Row `r` of `X` divided, entry by entry, by the count of row `r`. -/
def G1 (X : Vec Ideal S196608x64 .f32) (C : Vec Ideal S196608x1 .f32) : Vec Ideal S196608x64 .f32 :=
  fun i => Ideal.div (X i) (C (ix2 (⟨(i 0).val, (i 0).isLt⟩ : Fin 196608) (0 : Fin 1)))

theorem G1_idx (X : Vec Ideal S196608x64 .f32) (C : Vec Ideal S196608x1 .f32) (i : S196608x64.Idx) :
    G1 X C i = Ideal.div (X i) (C (ix2 (⟨(i 0).val, (i 0).isLt⟩ : Fin 196608) (0 : Fin 1))) := rfl

theorem G1_apply (X : Vec Ideal S196608x64 .f32) (C : Vec Ideal S196608x1 .f32) (r : Fin 196608) (d : Fin 64) :
    G1 X C (ix2 r d) = Ideal.div (X (ix2 r d)) (C (ix2 r (0 : Fin 1))) := rfl

/-! ## The body's payload at an index -/

/-- A column `[4096, 1]` broadcast to `[4096, 64]` reads, at `(p, d)`, the column's entry of row `p`. -/
theorem broadcast_col_apply {α : Type} (v : S4096x1.Idx → α) (h : S4096x1.Broadcasts S4096x64) (p : Fin 4096) (d : Fin 64) :
    broadcastTo S4096x64 v h (ix2 p d) = v (ix2 p (0 : Fin 1)) :=
  broadcastTo_apply v h (ix2 p d) (ix2 p (0 : Fin 1)) (fun a => match a with
    | ⟨0, _⟩ => by show p.val = if (4096 : Nat) = 1 then 0 else p.val; rw [if_neg (by decide)]
    | ⟨1, _⟩ => by show (0 : Nat) = if (1 : Nat) = 1 then 0 else d.val; rw [if_pos rfl])

/-- The body divides each entry of its `[4096, 64]` block by the entry of the `[4096, 1]` column in the same row. -/
theorem pay_apply (c0 : Vec Ideal S4096x1 .f32) (x : Vec Ideal S4096x64 .f32) (p : Fin 4096) (d : Fin 64) :
    Cert.KernelIdeal.Gen.k1_pay1 (F := Ideal) c0 x (ix2 p d) = Ideal.div (x (ix2 p d)) (c0 (ix2 p (0 : Fin 1))) := by
  unfold Cert.KernelIdeal.Gen.k1_pay1
  refine (divf_apply _ _ _).trans ?_
  rw [shapeCast_self, shapeCast_self]
  exact congrArg (Ideal.div (x (ix2 p d))) (broadcast_col_apply c0 _ p d)

/-! ## Reshape to rows, divide, reshape back: the reference's broadcast division -/

/-- The four-axis array viewed as rows reads, at `(row b t n, d)`, its entry `(b, t, n, d)`. -/
theorem rows_apply {α : Type} (S : S4x12x4096x64.Idx → α) (h : S4x12x4096x64.ShapeCasts S196608x64)
    (b : Fin 4) (t : Fin 12) (n : Fin 4096) (d : Fin 64) :
    shapeCast S196608x64 S h (ix2 (row b t n) d) = S (ix4 b t n d) :=
  shapeCast_apply S h _ _ (by
    rw [Shape.rowMajor_val_two, Shape.rowMajor_val_four]
    show ((b.val * 12 + t.val) * 4096 + n.val) * 64 + d.val = ((b.val * 12 + t.val) * 4096 + n.val) * 64 + d.val
    rfl)

/-- The counts viewed as a column read, at `(row b t n, 0)`, the count `(b, t, n)`. -/
theorem col_apply {α : Type} (K : S4x12x4096.Idx → α) (h : S4x12x4096.ShapeCasts S196608x1)
    (b : Fin 4) (t : Fin 12) (n : Fin 4096) :
    shapeCast S196608x1 K h (ix2 (row b t n) (0 : Fin 1)) = K (ix3 b t n) :=
  shapeCast_apply K h _ _ (by
    rw [Shape.rowMajor_val_two, Shape.rowMajor_val_three]
    show (b.val * 12 + t.val) * 4096 + n.val = ((b.val * 12 + t.val) * 4096 + n.val) * 1 + 0
    omega)

/-- Rows viewed back as the four-axis array read, at `(b, t, n, d)`, the entry `(row b t n, d)`. -/
theorem unrows_apply {α : Type} (Y : S196608x64.Idx → α) (h : S196608x64.ShapeCasts S4x12x4096x64)
    (b : Fin 4) (t : Fin 12) (n : Fin 4096) (d : Fin 64) :
    shapeCast S4x12x4096x64 Y h (ix4 b t n d) = Y (ix2 (row b t n) d) :=
  shapeCast_apply Y h _ _ (by
    rw [Shape.rowMajor_val_two, Shape.rowMajor_val_four]
    show ((b.val * 12 + t.val) * 4096 + n.val) * 64 + d.val = ((b.val * 12 + t.val) * 4096 + n.val) * 64 + d.val
    rfl)

/-- The counts broadcast along a new last axis of extent 1 and then to extent 64 read, at `(b, t, n, d)`, the count
    `(b, t, n)`. -/
theorem bcast_apply {α : Type} (K : S4x12x4096.Idx → α)
    (h1 : S4x12x4096.BroadcastsInDim S4x12x4096x1 (![0, 1, 2] : Fin 3 → Fin S4x12x4096x1.rank))
    (h2 : S4x12x4096x1.BroadcastsInDim S4x12x4096x64 (![0, 1, 2, 3] : Fin 4 → Fin S4x12x4096x64.rank))
    (b : Fin 4) (t : Fin 12) (n : Fin 4096) (d : Fin 64) :
    broadcastInDim S4x12x4096x64 ![0, 1, 2, 3] h2 (broadcastInDim S4x12x4096x1 ![0, 1, 2] h1 K) (ix4 b t n d) = K (ix3 b t n) := by
  refine (broadcastInDim_apply _ h2 _ (ix4 b t n d) (ix4 b t n (0 : Fin 1)) (fun a => match a with
    | ⟨0, _⟩ => by show b.val = if (4 : Nat) = 1 then 0 else b.val; rw [if_neg (by decide)]
    | ⟨1, _⟩ => by show t.val = if (12 : Nat) = 1 then 0 else t.val; rw [if_neg (by decide)]
    | ⟨2, _⟩ => by show n.val = if (4096 : Nat) = 1 then 0 else n.val; rw [if_neg (by decide)]
    | ⟨3, _⟩ => by show (0 : Nat) = if (1 : Nat) = 1 then 0 else d.val; rw [if_pos rfl])).trans ?_
  exact broadcastInDim_apply _ h1 K (ix4 b t n (0 : Fin 1)) (ix3 b t n) (fun a => match a with
    | ⟨0, _⟩ => by show b.val = if (4 : Nat) = 1 then 0 else b.val; rw [if_neg (by decide)]
    | ⟨1, _⟩ => by show t.val = if (12 : Nat) = 1 then 0 else t.val; rw [if_neg (by decide)]
    | ⟨2, _⟩ => by show n.val = if (4096 : Nat) = 1 then 0 else n.val; rw [if_neg (by decide)])

/-- Reshaping to rows, dividing every row by its count and reshaping back is the division by the counts broadcast
    along the last axis, for any proofs of the shape relations. -/
theorem norm_eq_of (S : Vec Ideal S4x12x4096x64 .f32) (K : Vec Ideal S4x12x4096 .f32)
    (hX : S4x12x4096x64.ShapeCasts S196608x64) (hC : S4x12x4096.ShapeCasts S196608x1)
    (hY : S196608x64.ShapeCasts S4x12x4096x64)
    (h1 : S4x12x4096.BroadcastsInDim S4x12x4096x1 (![0, 1, 2] : Fin 3 → Fin S4x12x4096x1.rank))
    (h2 : S4x12x4096x1.BroadcastsInDim S4x12x4096x64 (![0, 1, 2, 3] : Fin 4 → Fin S4x12x4096x64.rank)) :
    shapeCast S4x12x4096x64 (G1 (shapeCast S196608x64 S hX) (shapeCast S196608x1 K hC)) hY
      = Host.divf (F := Ideal) (φ := .f32) S (broadcastInDim S4x12x4096x64 ![0, 1, 2, 3] h2 (broadcastInDim S4x12x4096x1 ![0, 1, 2] h1 K)) := by
  funext i
  obtain ⟨b, t, n, d, rfl⟩ : ∃ (b : Fin 4) (t : Fin 12) (n : Fin 4096) (d : Fin 64), i = ix4 b t n d :=
    ⟨i 0, i 1, i 2, i 3, eq_ix4 i⟩
  refine (unrows_apply _ hY b t n d).trans ?_
  refine (G1_apply _ _ (row b t n) d).trans ?_
  refine Eq.trans ?_ (hostDivf_apply _ _ _).symm
  rw [rows_apply S hX b t n d, col_apply K hC b t n, bcast_apply K h1 h2 b t n d]

/-- The same, at the shape relations the two programs state. -/
theorem norm_eq (S : Vec Ideal S4x12x4096x64 .f32) (K : Vec Ideal S4x12x4096 .f32) :
    shapeCast S4x12x4096x64
        (G1 (shapeCast S196608x64 S Cert.KernelIdeal.Facts₀.shapeCasts_S4x12x4096x64_S196608x64)
            (shapeCast S196608x1 K Cert.KernelIdeal.Facts₀.shapeCasts_S4x12x4096_S196608x1))
        Cert.KernelIdeal.Facts₀.shapeCasts_S196608x64_S4x12x4096x64
      = Host.divf (F := Ideal) (φ := .f32) S
          (broadcastInDim S4x12x4096x64 ![0, 1, 2, 3] Cert.ReferenceIdeal.Facts₀.bcast_S4x12x4096x1_S4x12x4096x64_0_1_2_3
            (broadcastInDim S4x12x4096x1 ![0, 1, 2] Cert.ReferenceIdeal.Facts₀.bcast_S4x12x4096_S4x12x4096x1_0_1_2 K)) :=
  norm_eq_of S K _ _ _ _ _

end Cert.Norm

end
-- ==== Proof.KIVal1.lean ====
/- The second region's output array after the run: the blocks the 48 grid points write back are the consecutive
   4096-row blocks of ONE array, every row of the aggregated array divided by the row's count; the blocks cover the
   array, so the array ends holding exactly that. -/
import proofs.«142184_j10161892622587_2_alg».proof.Proof.Gen.KernelIdeal.Launch
import proofs.«142184_j10161892622587_2_alg».proof.Proof.Gen.KernelIdeal.Skeleton
import proofs.«142184_j10161892622587_2_alg».proof.Proof.Gen.KernelIdeal.Points
import proofs.«142184_j10161892622587_2_alg».proof.Proof.KIBody1
import proofs.«142184_j10161892622587_2_alg».proof.Proof.NormValue
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the 48 grid points: point `t` sees block `t` along the rows and block 0 along the
    columns, of all three arrays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of the block of point `t` is row `4096 t + p` of the array. -/
def rowAt (t : Fin cfg1.N) (p : Fin 4096) : Fin 196608 :=
  ⟨t.val * 4096 + p.val, by have hN : cfg1.N = 48 := N_1; have := t.isLt; have := p.isLt; omega⟩

theorem rowAt_val (t : Fin cfg1.N) (p : Fin 4096) : (rowAt t p).val = t.val * 4096 + p.val := rfl

/-- The aggregated array's block at point `t`, entry by entry. -/
theorem iblk1_0_apply (c : Dev nD) (t : Fin cfg1.N) (p : Fin 4096) (d : Fin 64) :
    (iblk1 V c 0 t : Vec Ideal S4096x64 .f32) (ix2 p d) = (V c main_v78 : Vec Ideal S196608x64 .f32) (ix2 (rowAt t p) d) := by
  obtain ⟨e0, e1, -, -, -, -⟩ := idx_facts1 t
  unfold iblk1
  rw [View.read_apply]
  show V c main_v78 _ = V c main_v78 _
  congr 1
  funext a
  apply Fin.ext
  match a with
  | ⟨0, _⟩ => show win1_0.index t (0 : Fin 2) * 4096 + 1 * p.val = t.val * 4096 + p.val; rw [e0]; omega
  | ⟨1, _⟩ => show win1_0.index t (1 : Fin 2) * 64 + 1 * d.val = d.val; rw [e1]; omega

/-- The counts' block at point `t`, entry by entry. -/
theorem iblk1_1_apply (c : Dev nD) (t : Fin cfg1.N) (p : Fin 4096) :
    (iblk1 V c 1 t : Vec Ideal S4096x1 .f32) (ix2 p (0 : Fin 1)) = (V c main_v79 : Vec Ideal S196608x1 .f32) (ix2 (rowAt t p) (0 : Fin 1)) := by
  obtain ⟨-, -, e0, e1, -, -⟩ := idx_facts1 t
  unfold iblk1
  rw [View.read_apply]
  show V c main_v79 _ = V c main_v79 _
  congr 1
  funext a
  apply Fin.ext
  match a with
  | ⟨0, _⟩ => show win1_1.index t (0 : Fin 2) * 4096 + 1 * p.val = t.val * 4096 + p.val; rw [e0]; omega
  | ⟨1, _⟩ => show win1_1.index t (1 : Fin 2) * 1 + 1 * (0 : Fin 1).val = (0 : Fin 1).val; rw [e1]; rfl

/-- Where entry `(p, d)` of the output's block at point `t` sits in the array. -/
theorem emb1_2 (t : Fin cfg1.N) (p : Fin 4096) (d : Fin 64) :
    ((cfg1.win 2).blk t).view.emb (ix2 p d) = (ix2 (rowAt t p) d : S196608x64.Idx) := by
  obtain ⟨-, -, -, -, e0, e1⟩ := idx_facts1 t
  funext a
  apply Fin.ext
  match a with
  | ⟨0, _⟩ => show win1_2.index t (0 : Fin 2) * 4096 + 1 * p.val = t.val * 4096 + p.val; rw [e0]; omega
  | ⟨1, _⟩ => show win1_2.index t (1 : Fin 2) * 64 + 1 * d.val = d.val; rw [e1]; omega

/-- What point `t` writes back is block `t` of the array of rows divided by their counts. -/
theorem flushed1_eq (c : Dev nD) (t : Fin cfg1.N) :
    (dat1 V c).flushed 2 t = ((cfg1.win 2).blk t).view.read (Elt Ideal) (Cert.Norm.G1 (V c main_v78) (V c main_v79)) := by
  show (cfg1.win 2).cut (grid1.coords t) ((dat1 V c).after 2 t) = _
  rw [after1_2]
  unfold out1_2
  rw [View.canon_unit_zero hz1]
  simp only [View.ld_unit_zero (S := S4096x64) hz1, View.ld_unit_zero (S := S4096x1) hz1]
  funext j
  show k1_pay1 (F := Ideal) (iblk1 V c 1 t) (iblk1 V c 0 t) j
    = Cert.Norm.G1 (V c main_v78) (V c main_v79) (((cfg1.win 2).blk t).view.emb j)
  obtain ⟨p, d, rfl⟩ : ∃ (p : Fin 4096) (d : Fin 64), j = ix2 p d := ⟨j 0, j 1, eq_ix2 j⟩
  rw [emb1_2 t p d]
  refine (Cert.Norm.pay_apply _ _ p d).trans ?_
  refine Eq.trans ?_ (Cert.Norm.G1_apply _ _ (rowAt t p) d).symm
  rw [iblk1_0_apply V c t p d, iblk1_1_apply V c t p]

/-- An index of the array is in point `t`'s block iff each coordinate is in the block's range on its axis. -/
theorem mem_blk1 (t : Fin cfg1.N) (i : S196608x64.Idx) :
    i ∈ ((cfg1.win 2).blk t).view.set ↔ ∀ a : Fin 2, win1_2.index t a * S4096x64.size a ≤ (i a).val ∧ (i a).val < win1_2.index t a * S4096x64.size a + S4096x64.size a := by
  show i ∈ ((View.whole main_v80).slice (win1_2.rect t)).set ↔ _
  rw [View.set_slice_whole, Rect.mem_set_unit]
  exact Iff.rfl

/-- Every row lies in the block of the point numbered by the row's quotient by 4096. -/
theorem cover1 (i : S196608x64.Idx) :
    ∃ t : Fin cfg1.N, (cfg1.win 2).flush t = true ∧ i ∈ ((cfg1.win 2).blk t).view.set := by
  have hN : cfg1.N = 48 := N_1
  have hi0 : (i 0).val < 196608 := (i 0).isLt
  have hi1 : (i 1).val < 64 := (i 1).isLt
  let t : Fin cfg1.N := ⟨(i 0).val / 4096, by omega⟩
  have ht : t.val = (i 0).val / 4096 := rfl
  obtain ⟨-, -, -, -, e0, e1⟩ := idx_facts1 t
  refine ⟨t, flush1_2 t, ?_⟩
  rw [mem_blk1]
  intro a
  match a with
  | ⟨0, _⟩ => show win1_2.index t (0 : Fin 2) * 4096 ≤ (i 0).val ∧ (i 0).val < win1_2.index t (0 : Fin 2) * 4096 + 4096; rw [e0, ht]; omega
  | ⟨1, _⟩ => show win1_2.index t (1 : Fin 2) * 64 ≤ (i 1).val ∧ (i 1).val < win1_2.index t (1 : Fin 2) * 64 + 64; rw [e1]; omega

/-- The output array after the run: every row of the aggregated array divided by the row's count. -/
theorem final1 (c : Dev nD) :
    (dat1 V c).arrAt 2 cfg1.N = Cert.Norm.G1 (V c main_v78) (V c main_v79) :=
  (dat1 V c).arrAt_eq_of_cover 2 (Cert.Norm.G1 (V c main_v78) (V c main_v79)) (fun t _ => flushed1_eq V c t) cover1

end Cert.KernelIdeal.Fr

end
-- ==== Proof.KIValue.lean ====
/- The idealized kernel's result as the one term of its argument arrays that the reference computes. Reading back from
   the end: the result is the second region's array with its rows split into three axes; that array is the rows of the
   aggregate divided by the column of counts; the aggregate is the scatter-add of the first region's array (nodes and
   neighbours merged); and the first region's array is the node-wise product of the flattened adjacency and gathered
   features. Flattening, multiplying node by node and merging is the batched product merged; flattening, dividing row by
   row and splitting back is the division by the broadcast counts. -/
import proofs.«142184_j10161892622587_2_alg».proof.Proof.Gen.KernelIdeal.Launch
import proofs.«142184_j10161892622587_2_alg».proof.Proof.Gen.KernelIdeal.Skeleton
import proofs.«142184_j10161892622587_2_alg».proof.Proof.Gen.KernelIdeal.Points
import proofs.«142184_j10161892622587_2_alg».proof.Proof.KIHost
import proofs.«142184_j10161892622587_2_alg».proof.Proof.KIVal0
import proofs.«142184_j10161892622587_2_alg».proof.Proof.KIVal1
import proofs.«142184_j10161892622587_2_alg».proof.Proof.MixValue
import proofs.«142184_j10161892622587_2_alg».proof.Proof.NormValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The program's last contents of its result buffer are the reference's term of the argument arrays. -/
theorem result_eq (c : Dev nD) : W5 m ρ c (Proc.devRef .tc main_v81)
    = resT (m ((c : Thread nD τ).loc main_arg0)) (m ((c : Thread nD τ).loc main_arg1)) (m ((c : Thread nD τ).loc main_arg2))
        (m ((c : Thread nD τ).loc main_arg3)) (m ((c : Thread nD τ).loc main_arg4)) := by
  rw [W5_v81]
  rw [show W4 m ρ c (Proc.devRef .tc main_v80) = (dat1 (V3 m ρ) c).arrAt 2 cfg1.N from W4_arr m ρ c 2]
  rw [final1 (V3 m ρ) c]
  rw [show V3 m ρ c main_v78 = _ from W3_v78 m ρ c, show V3 m ρ c main_v79 = _ from W3_v79 m ρ c]
  rw [show W2 m ρ c (Proc.devRef .tc main_v24) = (dat0 (V1 m ρ) c).arrAt 2 cfg0.N from W2_arr m ρ c 2]
  rw [final0 (V1 m ρ) c]
  rw [show V1 m ρ c main_v22 = _ from W1_v22 m ρ c, show V1 m ρ c main_v23 = _ from W1_v23 m ρ c]
  rw [Cert.Mix.mix_eq' _ _ _ _ _ Cert.ReferenceIdeal.Gen.shapeCasts_S4x12x4096x8x64_S4x12x32768x64]
  exact Cert.Norm.norm_eq_of _ _ _ _ _ _ _

/-- Every weakly fair execution of the idealized kernel's program ends with its result at the reference's term of the
    argument arrays, and the arguments unchanged. -/
theorem value_run : θ_run defs (onTc (τ := τ) (main (F := Ideal))) ⟨m, fun _ => 0, ρ⟩ (fun r => ∀ c : Dev nD,
      r.2.mem ((c.tc : Thread nD τ).loc main_v81) = resT (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v81 (by decide))).trans (result_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Fr

end
-- ==== Proof.RefTerm.lean ====
/- The reference's result is the same term of the argument arrays: its operations are, one for one, those of the
   term, on arrays of the same shapes. -/
import proofs.«142184_j10161892622587_2_alg».proof.Proof.KITerms
import proofs.«142184_j10161892622587_2_alg».proof.Proof.Gen.ReferenceIdeal.Run

noncomputable section

namespace Cert.KernelIdeal.Fr

open Idealize.ShloMosaic Idealize.ShloMosaic.TcCoe Idealize.SL.Sem

variable {F : FTy → Type} [FloatOps F]

set_option maxRecDepth 16384 in
/-- The reference's composed result is `resT` of its own argument arrays. -/
theorem ref_eq (m' : (ℓ : Loc Cert.ReferenceIdeal.nD Cert.ReferenceIdeal.τ Cert.ReferenceIdeal.sig) → Buf (Elt F) ℓ) (c : Dev Cert.ReferenceIdeal.nD) :
    Cert.ReferenceIdeal.Value.res_main_v78 m' c
      = resT (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := by
  unfold Cert.ReferenceIdeal.Value.res_main_v78 resT aggOf counts gathered idx0 idx1 zeros eps ones
  rfl

end Cert.KernelIdeal.Fr

end
-- ==== Proof.lean ====
/- The certificate. The kernel gathers neighbour features, multiplies them node by node with 8×8 adjacency blocks in a
   first tiled region, scatter-adds the messages and a count of one per message on the host, and divides the aggregate
   row by row by the counts in a second tiled region; the reference does the same with one batched product and one
   broadcast division. Both programs' frames: the kernel's two regions are run block by block (each body loads its
   whole input blocks, computes, and stores its whole output block) between the host stretches, at the word-level
   and at the ideal instance alike; the reference is a line of host operations. At the ideal instance the two
   results are the same term of the arguments: the bf16 narrowing is the identity, the node-wise products laid out
   again are the batched product, and dividing rows by a column is dividing by the broadcast column. No finiteness
   of the inputs is used: only that finite sums may be re-indexed. The ideal pass rewrote nothing, so the
   idealization is the program's own text read at the ideal instance. -/
import proofs.«142184_j10161892622587_2_alg».proof.Defs
import proofs.«142184_j10161892622587_2_alg».proof.Proof.Gen.Kernel
import proofs.«142184_j10161892622587_2_alg».proof.Proof.Gen.KernelIdeal
import proofs.«142184_j10161892622587_2_alg».proof.Proof.Gen.ReferenceIdeal
import proofs.«142184_j10161892622587_2_alg».proof.Proof.Gen.Pre_finite_inputs
import proofs.«142184_j10161892622587_2_alg».proof.Proof.Gen.ReferenceIdeal.Run
import proofs.«142184_j10161892622587_2_alg».proof.Proof.Gen.ReferenceIdeal.Read
import proofs.«142184_j10161892622587_2_alg».proof.Proof.KRun
import proofs.«142184_j10161892622587_2_alg».proof.Proof.KIRun
import proofs.«142184_j10161892622587_2_alg».proof.Proof.KIValue
import proofs.«142184_j10161892622587_2_alg».proof.Proof.RefTerm
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.KernelIdeal.Fr.resT (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
     Cert.KernelIdeal.Fr.value_run m ρ,
     (θ_run Cert.ReferenceIdeal.defs _ _).mono (fun _ h c =>
        ⟨by rw [(h c).1, Cert.KernelIdeal.Fr.ref_eq m' c, (hagree c).1, (hagree c).2.1, (hagree c).2.2.1, (hagree c).2.2.2.1, (hagree c).2.2.2.2], (h c).2⟩)
       (Cert.ReferenceIdeal.Value.run (F := Ideal) m' ρ')⟩⟩

end Cert.Proof

end
